-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x1024 : Shape := ⟨2, ![64, 1024]⟩
abbrev S64 : Shape := ⟨1, ![64]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S64x1024 .f32) (main_arg2 : FVec F S64 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S64x1024 : Shape := ⟨2, ![64, 1024]⟩
abbrev S64 : Shape := ⟨1, ![64]⟩
abbrev S1024x1024 : Shape := ⟨2, ![1024, 1024]⟩
abbrev S_ : Shape := ⟨0, ![]⟩
abbrev S1x64 : Shape := ⟨2, ![1, 64]⟩
abbrev S4x64x4096 : Shape := ⟨3, ![4, 64, 4096]⟩
abbrev S4x64x1024 : Shape := ⟨3, ![4, 64, 1024]⟩
abbrev S1x1024x1024 : Shape := ⟨3, ![1, 1024, 1024]⟩
abbrev S1x64x1024 : Shape := ⟨3, ![1, 64, 1024]⟩
abbrev S1024x64 : Shape := ⟨2, ![1024, 64]⟩
abbrev S1024 : Shape := ⟨1, ![1024]⟩
abbrev S1024x1 : Shape := ⟨2, ![1024, 1]⟩

abbrev nBuf : Space → Nat
  | .hbm => 27
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64, .f32⟩
  | .hbm, ⟨3, _⟩ => ⟨S1024x1024, .f32⟩
  | .hbm, ⟨4, _⟩ => ⟨S1024x1024, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64, .f32⟩
  | .hbm, ⟨15, _⟩ => ⟨S64x1024, .f32⟩
  | .hbm, ⟨16, _⟩ => ⟨S_, .f32⟩
  | .hbm, ⟨17, _⟩ => ⟨S64, .f32⟩
  | .hbm, ⟨18, _⟩ => ⟨S1x64, .f32⟩
  | .hbm, ⟨19, _⟩ => ⟨S64x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S4x64x4096, .bf16⟩
  | .hbm, ⟨25, _⟩ => ⟨S4x64x1024, .f32⟩
  | .hbm, ⟨26, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S64x1024, .bf16⟩
  | .local _ .vmem, ⟨3, _⟩ => ⟨S1x64, .f32⟩
  | .local _ .vmem, ⟨4, _⟩ => ⟨S1x64, .f32⟩
  | .local _ .vmem, ⟨5, _⟩ => ⟨S1024x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .f32⟩
  | .local _ .vmem, ⟨9, _⟩ => ⟨S1x64x1024, .f32⟩
  | .local _ .vmem, ⟨10, _⟩ => ⟨S64x1024, .f32⟩
  | .local _ .vmem, ⟨11, _⟩ => ⟨S1x64x1024, .bf16⟩
  | .local _ .vmem, ⟨12, _⟩ => ⟨S1x64x1024, .bf16⟩
  | .local _ .vmem, ⟨13, _⟩ => ⟨S1x64x1024, .f32⟩
  | .local _ .vmem, ⟨14, _⟩ => ⟨S1x64x1024, .f32⟩
  | .local _ .vmem, ⟨15, _⟩ => ⟨S1024x1024, .bf16⟩
  | .local _ .vmem, ⟨16, _⟩ => ⟨S1x1024x1024, .f32⟩
  | .local _ .vmem, ⟨17, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_26 : BitVec 32 := 0#32
  let v54 : BitVec 1 := Scalar.cmpi .ne v53 c0_i32_26
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S64 : S_.BroadcastsInDim S64 (![] : Fin 0 → Fin S64.rank)
  shapeCasts_S64_S1x64 : S64.ShapeCasts S1x64
  reducesTo_S64x1024_S64_d1 : S64x1024.ReducesTo [1] S64
  h_S_ : 0 < S_.numel
  bitsLt_bf16_f32 : FTy.bits .bf16 < FTy.bits .f32
  transposes_S1024x1024_S1024x1024_1_0 : S1024x1024.Transposes [1, 0] S1024x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S1024x1024_S1024 : S1024x1024.Reduces [1] S1024
  shapeCasts_S1024_S1024x1 : S1024.ShapeCasts S1024x1
  broadcasts_S1024x1_S1024x64 : S1024x1.Broadcasts S1024x64
  broadcasts_S1x64_S1024x64 : S1x64.Broadcasts S1024x64
  reduces_S1024x64_S1024 : S1024x64.Reduces [1] S1024
  transposes_S1024x64_p1_0_S64x1024 : S1024x64.Transposes [1, 0] S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  packedbf16_S1x64x1024_S1x64x1024_0_0_0 : (Rect.unit (s := S1x64x1024) ![0, 0, 0] S1x64x1024.size inb_S1x64x1024_S1x64x1024_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  dot_S1024x1024_S64x1024_S1024x64_1_1_0_0_n_n_wf : DotDims.WF S1024x1024 S64x1024 S1024x64 [1] [1] [0] [0] [] []
  dot_S1024x1024_S1024x1024_S1024x1024_1_0_0_1_n_n_wf : DotDims.WF S1024x1024 S1024x1024 S1024x1024 [1] [0] [0] [1] [] []
  dot_S1024x64_S1024x1024_S64x1024_0_0_1_1_n_n_wf : DotDims.WF S1024x64 S1024x1024 S64x1024 [0] [0] [1] [1] [] []
  dot_S64x1024_S64x1024_S1024x1024_0_0_1_1_n_n_wf : DotDims.WF S64x1024 S64x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .bf16 = 32 ∨ (Rect.block (s := S64x1024) S64x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S4x64x4096.size a
  hwx0_5 : ∀ i : grid0.Coords, EltTy.bits .bf16 = 32 ∨ (Rect.block (s := S4x64x4096) S1x64x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1024.size a ≤ S4x64x1024.size a
  hwx0_6 : ∀ i : grid0.Coords, EltTy.bits .f32 = 32 ∨ (Rect.block (s := S4x64x1024) S1x64x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S4x64x4096.size a
  hwx1_0 : ∀ i : grid1.Coords, EltTy.bits .bf16 = 32 ∨ (Rect.block (s := S4x64x4096) S1x64x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1024.size a ≤ S4x64x1024.size a
  hwx1_1 : ∀ i : grid1.Coords, EltTy.bits .f32 = 32 ∨ (Rect.block (s := S4x64x1024) S1x64x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S1024x1024_S64x1024_0_0_1_1_n_n : DotDims S1024x64 S1024x1024 S64x1024 where
  lhsContracting := [0]
  rhsContracting := [0]
  lhsNonContracting := [1]
  rhsNonContracting := [1]
  lhsBatch := []
  rhsBatch := []
  wf := dot_S1024x64_S1024x1024_S64x1024_0_0_1_1_n_n_wf
def dot_S64x1024_S64x1024_S1024x1024_0_0_1_1_n_n : DotDims S64x1024 S64x1024 S1024x1024 where
  lhsContracting := [0]
  rhsContracting := [0]
  lhsNonContracting := [1]
  rhsNonContracting := [1]
  lhsBatch := []
  rhsBatch := []
  wf := dot_S64x1024_S64x1024_S1024x1024_0_0_1_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S1x64x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S1x64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v11_0) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S1x64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S64x1024 : Shape := ⟨2, ![64, 1024]⟩
abbrev S64 : Shape := ⟨1, ![64]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S4x4096x64 : Shape := ⟨3, ![4, 4096, 64]⟩
abbrev S1x1x64 : Shape := ⟨3, ![1, 1, 64]⟩
abbrev S4x64x1024 : Shape := ⟨3, ![4, 64, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S64x1024, .f32⟩
  | .hbm, ⟨20, _⟩ => ⟨S_, .f32⟩
  | .hbm, ⟨21, _⟩ => ⟨S64, .f32⟩
  | .hbm, ⟨22, _⟩ => ⟨S4x4096x64, .f32⟩
  | .hbm, ⟨23, _⟩ => ⟨S_, .f32⟩
  | .hbm, ⟨24, _⟩ => ⟨S4x4096x64, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S1x1x64, .f32⟩
  | .hbm, ⟨29, _⟩ => ⟨S4x4096x64, .f32⟩
  | .hbm, ⟨30, _⟩ => ⟨S4x4096x64, .f32⟩
  | .hbm, ⟨31, _⟩ => ⟨S_, .f32⟩
  | .hbm, ⟨32, _⟩ => ⟨S4x4096x64, .f32⟩
  | .hbm, ⟨33, _⟩ => ⟨S4x4096x64, .f32⟩
  | .hbm, ⟨34, _⟩ => ⟨S_, .f32⟩
  | .hbm, ⟨35, _⟩ => ⟨S4x4096x64, .f32⟩
  | .hbm, ⟨36, _⟩ => ⟨S4x4096x64, .f32⟩
  | .hbm, ⟨37, _⟩ => ⟨S64, .f32⟩
  | .hbm, ⟨38, _⟩ => ⟨S1x1x64, .f32⟩
  | .hbm, ⟨39, _⟩ => ⟨S4x4096x64, .f32⟩
  | .hbm, ⟨40, _⟩ => ⟨S4x4096x64, .f32⟩
  | .hbm, ⟨41, _⟩ => ⟨S4x4096x64, .f32⟩
  | .hbm, ⟨42, _⟩ => ⟨S_, .f32⟩
  | .hbm, ⟨43, _⟩ => ⟨S4x4096x64, .f32⟩
  | .hbm, ⟨44, _⟩ => ⟨S4x4096x64, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x64, .f32⟩
  | .hbm, ⟨52, _⟩ => ⟨S4x4096x64, .f32⟩
  | .hbm, ⟨53, _⟩ => ⟨S4x64x1024, .f32⟩
  | .hbm, ⟨54, _⟩ => ⟨S4x4096x1024, .f32⟩
  | .hbm, ⟨55, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  bcast_S_S64 : S_.BroadcastsInDim S64 (![] : Fin 0 → Fin S64.rank)
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  reducesTo_S64x1024_S64_d1 : S64x1024.ReducesTo [1] S64
  bcast_S_S4x4096x64 : S_.BroadcastsInDim S4x4096x64 (![] : Fin 0 → Fin S4x4096x64.rank)
  bcast_S4x4096x1_S4x4096x64_0_1_2 : S4x4096x1.BroadcastsInDim S4x4096x64 (![0, 1, 2] : Fin 3 → Fin S4x4096x64.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  reducesTo_S4x4096x64_S4x4096_d2 : S4x4096x64.ReducesTo [2] S4x4096
  bcast_S_S4x4096x1 : S_.BroadcastsInDim S4x4096x1 (![] : Fin 0 → Fin S4x4096x1.rank)
  dot_S4x4096x1024_S1024x1024_S4x4096x1024_2_1_01_0_n_n_wf : DotDims.WF S4x4096x1024 S1024x1024 S4x4096x1024 [2] [1] [0, 1] [0] [] []
  dot_S4x4096x1024_S64x1024_S4x4096x64_2_1_01_0_n_n_wf : DotDims.WF S4x4096x1024 S64x1024 S4x4096x64 [2] [1] [0, 1] [0] [] []
  dot_S4x4096x64_S4x4096x1024_S4x64x1024_1_1_2_2_0_0_wf : DotDims.WF S4x4096x64 S4x4096x1024 S4x64x1024 [1] [1] [2] [2] [0] [0]
  dot_S4x4096x64_S4x64x1024_S4x4096x1024_2_1_1_2_0_0_wf : DotDims.WF S4x4096x64 S4x64x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x1024_S4x64x1024_1_1_2_2_0_0 : DotDims S4x4096x64 S4x4096x1024 S4x64x1024 where
  lhsContracting := [1]
  rhsContracting := [1]
  lhsNonContracting := [2]
  rhsNonContracting := [2]
  lhsBatch := [0]
  rhsBatch := [0]
  wf := dot_S4x4096x64_S4x4096x1024_S4x64x1024_1_1_2_2_0_0_wf
def dot_S4x4096x64_S4x64x1024_S4x4096x1024_2_1_1_2_0_0 : DotDims S4x4096x64 S4x64x1024 S4x4096x1024 where
  lhsContracting := [2]
  rhsContracting := [1]
  lhsNonContracting := [1]
  rhsNonContracting := [2]
  lhsBatch := [0]
  rhsBatch := [0]
  wf := dot_S4x4096x64_S4x64x1024_S4x4096x1024_2_1_1_2_0_0_wf

class Facts : Prop extends Facts₀ where

variable [Facts]
-- ==== Proof.BFrame0.lean ====
/-
  The first kernel region (affinities, values, and the splat states accumulated over the four row tiles of a batch),
  at the buffer contents V the region is entered from: each window's block at a grid point, the two conditions of
  the body decided over the grid (first tile of a batch: the accumulator is zeroed; last tile: it is copied out),
  where the second output is idle, and the staging and scratch memrefs the runs are stated over.
-/
import proofs.«125242_j49744311222303_2_alg».proof.Proof.Gen.Kernel.Launch
import proofs.«125242_j49744311222303_2_alg».proof.Proof.Gen.Kernel.Skeleton
import proofs.«125242_j49744311222303_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The first condition: the tile is the first of its batch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second condition: the tile is the last of its batch. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The inputs and the first output are never idle; the second output is idle except at a batch's last tile,
    and is not written back where it is idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- One staging buffer of each output window, through which its contents are stated. -/
abbrev VO0_5 : View sig .tc .vmem S1x64x1024 .bf16 := (Memref.whole cc0_stg5_0 : Memref sig .tc .vmem S1x64x1024 .bf16).view
abbrev VO0_6 : View sig .tc .vmem S1x64x1024 .f32 := (Memref.whole cc0_stg6_0 : Memref sig .tc .vmem S1x64x1024 .f32).view
/-- Each window's current staging memref at point t, as the pipeline passes it, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x1024 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S64x1024 .f32 := Memref.whole cc0_scratch0
abbrev VS0_0 : View sig .tc .vmem S64x1024 .f32 := scM0_0.view

/-- The other scoped buffers of the core that are no staging buffer of this region: each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.Kernel.Hand

end
-- ==== Proof.BRun0A.lean ====
/-
  The first kernel's body run whole in case A of its two conditions (first tile of a batch): on whole staging memrefs holding
  the input blocks, the body ends with the inputs as found and each stored buffer holding the pieces the run finds.
-/
import proofs.«125242_j49744311222303_2_alg».proof.Proof.BFrame0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i)
    (x0 : Vec F S1x1024x1024 .f32) (x1 : Vec F S64x1024 .bf16) (x2 : Vec F S1x64 .f32) (x3 : Vec F S1x64 .f32) (x4 : Vec F S1024x1024 .bf16) :
    Σ' (L5 : List (View.Piece (Elt F) S1x64x1024 .bf16)), { LS0 : List (View.Piece (Elt F) S64x1024 .f32) //
      ∀ (xi6 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9) K } := by
  refine ⟨?_, ?_, fun xi6 E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.Kernel.Hand

end
-- ==== Proof.BRun0B.lean ====
/-
  The first kernel's body run whole in case B of its two conditions (a middle tile): on whole staging memrefs holding
  the input blocks, the body ends with the inputs as found and each stored buffer holding the pieces the run finds.
-/
import proofs.«125242_j49744311222303_2_alg».proof.Proof.BRun0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i)
    (x0 : Vec F S1x1024x1024 .f32) (x1 : Vec F S64x1024 .bf16) (x2 : Vec F S1x64 .f32) (x3 : Vec F S1x64 .f32) (x4 : Vec F S1024x1024 .bf16) (xs0 : Vec F S64x1024 .f32) :
    Σ' (L5 : List (View.Piece (Elt F) S1x64x1024 .bf16)), { LS0 : List (View.Piece (Elt F) S64x1024 .f32) //
      ∀ (xi6 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9) K } := by
  refine ⟨?_, ?_, fun xi6 E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.Kernel.Hand

end
-- ==== Proof.BRun0C.lean ====
/-
  The first kernel's body run whole in case C of its two conditions (last tile of a batch): on whole staging memrefs holding
  the input blocks, the body ends with the inputs as found and each stored buffer holding the pieces the run finds.
-/
import proofs.«125242_j49744311222303_2_alg».proof.Proof.BRun0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i)
    (x0 : Vec F S1x1024x1024 .f32) (x1 : Vec F S64x1024 .bf16) (x2 : Vec F S1x64 .f32) (x3 : Vec F S1x64 .f32) (x4 : Vec F S1024x1024 .bf16) (xs0 : Vec F S64x1024 .f32) :
    Σ' (L5 : List (View.Piece (Elt F) S1x64x1024 .bf16)) (L6 : List (View.Piece (Elt F) S1x64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9) K } := by
  refine ⟨?_, ?_, ?_, fun E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.BFrame0b.lean ====
/-
  The first kernel region's accumulation: what each case of the body leaves in the two output blocks and in the
  accumulator, point by point over the grid (the accumulator a tile finds is what the tile before left); the region
  invariant that carries the accumulator between points; the pipeline's proof data and its body obligation.
-/
import proofs.«125242_j49744311222303_2_alg».proof.Proof.BRun0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_A_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (y : S1x64x1024.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S1x64x1024.size (by sl_kernel_rfl) y
def out0_A_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) : Vec F S1x64x1024 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)
theorem scover0_A_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (y : S64x1024.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S64x1024.size (by sl_kernel_rfl) y
def sout0_A_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) : Vec F S64x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

theorem cover0_B_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S1x64x1024.Idx) :
    ∃ pc ∈ (kernelRun0_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).1 S1x64x1024.size (by sl_kernel_rfl) y
def out0_B_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S1x64x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)
theorem scover0_B_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S64x1024.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S64x1024.size (by sl_kernel_rfl) y
def sout0_B_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S64x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0).2.1)

theorem cover0_C_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S1x64x1024.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S1x64x1024.size (by sl_kernel_rfl) y
def out0_C_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S1x64x1024 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)
theorem scover0_C_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S64x1024.Idx) :
    ∃ pc ∈ (kernelRun0_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.2.1 S64x1024.size (by sl_kernel_rfl) y
def sout0_C_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S64x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0).2.2.1)

theorem cover0_C_6 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S1x64x1024.Idx) :
    ∃ pc ∈ (kernelRun0_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.1 S1x64x1024.size (by sl_kernel_rfl) y
def out0_C_6 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S1x64x1024 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xs0).2.1)

/-- A placeholder for the second output's block where the window is idle: nothing consults it. -/
def junk6 : Vec F S1x64x1024 .f32 := VO0_6.read (Elt F) VO0_6.junk

/-- The three buffers (first output, second output, accumulator) after a point of each case. -/
def outA (c : Dev nD) (t : Fin cfg0.N) (hc0 : cond0_0 (grid0.coords t)) (hc1 : ¬cond0_1 (grid0.coords t)) : Vec F S1x64x1024 .bf16 × Vec F S1x64x1024 .f32 × Vec F S64x1024 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t), junk6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t))
def outB (c : Dev nD) (t : Fin cfg0.N) (hc0 : ¬cond0_0 (grid0.coords t)) (hc1 : ¬cond0_1 (grid0.coords t)) (xs0 : Vec F S64x1024 .f32) : Vec F S1x64x1024 .bf16 × Vec F S1x64x1024 .f32 × Vec F S64x1024 .f32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0, junk6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0)
def outC (c : Dev nD) (t : Fin cfg0.N) (hc0 : ¬cond0_0 (grid0.coords t)) (hc1 : cond0_1 (grid0.coords t)) (xs0 : Vec F S64x1024 .f32) : Vec F S1x64x1024 .bf16 × Vec F S1x64x1024 .f32 × Vec F S64x1024 .f32 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0)

theorem notc1_of_c0 (t : Fin cfg0.N) (h0 : t.val % 4 = 0) : ¬cond0_1 (grid0.coords t) := fun h => by
  have h' := (hcond0_1 t).mp h; omega
theorem notc0_of (t : Fin cfg0.N) (h0 : ¬t.val % 4 = 0) : ¬cond0_0 (grid0.coords t) := fun h => h0 ((hcond0_0 t).mp h)
theorem notc1_of (t : Fin cfg0.N) (h1 : ¬t.val % 4 = 3) : ¬cond0_1 (grid0.coords t) := fun h => h1 ((hcond0_1 t).mp h)

/-- THE ACCUMULATION: the three buffers after the body at position n. -/
def outsAt0 (c : Dev nD) : (n : ℕ) → n < cfg0.N → Vec F S1x64x1024 .bf16 × Vec F S1x64x1024 .f32 × Vec F S64x1024 .f32
  | 0, hn => outA V c ⟨0, hn⟩ ((hcond0_0 ⟨0, hn⟩).mpr (Nat.zero_mod _)) (notc1_of_c0 ⟨0, hn⟩ (Nat.zero_mod _))
  | n + 1, hn =>
    if h0 : (n + 1) % 4 = 0 then
      outA V c ⟨n + 1, hn⟩ ((hcond0_0 ⟨n + 1, hn⟩).mpr h0) (notc1_of_c0 ⟨n + 1, hn⟩ h0)
    else if h1 : (n + 1) % 4 = 3 then
      outC V c ⟨n + 1, hn⟩ (notc0_of ⟨n + 1, hn⟩ h0) ((hcond0_1 ⟨n + 1, hn⟩).mpr h1) (outsAt0 c n (Nat.lt_of_succ_lt hn)).2.2
    else
      outB V c ⟨n + 1, hn⟩ (notc0_of ⟨n + 1, hn⟩ h0) (notc1_of ⟨n + 1, hn⟩ h1) (outsAt0 c n (Nat.lt_of_succ_lt hn)).2.2

theorem outsAt0_A (c : Dev nD) (t : Fin cfg0.N) (h0 : t.val % 4 = 0) :
    outsAt0 V c t.val t.isLt = outA V c t ((hcond0_0 t).mpr h0) (notc1_of_c0 t h0) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = outB V c t (notc0_of t h0) (notc1_of t h1) (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = outC V c t (notc0_of t h0) ((hcond0_1 t).mpr h1) (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region invariant before position n: before the first point the class's; afterwards the accumulator at what
    the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ Rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  by_cases h0 : t.val % 4 = 0
  · have hc0 : cond0_0 (grid0.coords t) := (hcond0_0 t).mpr h0
    have hc1 : ¬cond0_1 (grid0.coords t) := notc1_of_c0 t h0
    rw [Dat.leavesExact_idle (dat0 V c) 6 t (idleAt0_6 t hc1) (noFlush0_6 t hc1)]
    rw [outsAt0_A V c t h0]
    unfold outA out0_A_5 sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ hc0 hc1 (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 _ _ _ _ _ _ _ _ _ _ _ _ _ _ _ _ _ _ _ _ _ _ _ _ _)
      iexists _; iexact H6
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ hc0 hc1 (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 _ _ _ _ _ _ _ _ _ _ _ _ _ _ _ _ _ _ _ _ _ _ _ _ _)
      iexists _; iexact H6
  · have hc0 : ¬cond0_0 (grid0.coords t) := notc0_of t h0
    have hz : t.val ≠ 0 := fun e => h0 (by rw [e])
    by_cases h1 : t.val % 4 = 3
    · have hc1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6 t hc1], after0_6]
      rw [outsAt0_C V c t h0 h1]
      unfold outC out0_C_5 out0_C_6 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ hc0 hc1 (iblk0 V c 0 t) (iblk0 V c 1 t) (iblk0 V c 2 t) (iblk0 V c 3 t) (iblk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 _ _ _ _ _ _ _ _ _ _ _ _ _ _ _ _ _ _ _ _ _ _ _ _ _ _)
      unfold owns; iexists _; isplitr
      swap; · iexact H6
      ipureintro; exact View.read_writes_of_cover _ _ _ _ _ (cover0_C_6 _ _ _ _ _ _ _ _ _ _ _ _ _ _ _ _ _ _ _ _ _ _ _ _ _ _)
    · have hc1 : ¬cond0_1 (grid0.coords t) := notc1_of t h1
      rw [Dat.leavesExact_idle (dat0 V c) 6 t (idleAt0_6 t hc1) (noFlush0_6 t hc1)]
      rw [outsAt0_B V c t h0 h1]
      unfold outB out0_B_5 sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ hc0 hc1 (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 _ _ _ _ _ _ _ _ _ _ _ _ _ _ _ _ _ _ _ _ _ _ _ _ _ _)
      iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, HR⟩, Hg⟩
  isplitl [HS0 HR]
  · isplitl [HS0]
    · iexists _; iexact HS0
    iexact HR
  iexact Hg

end Cert.Kernel.Hand

end
-- ==== Proof.BFrame1.lean ====
/-
  The second kernel region (token outputs times the output projection), at the buffer contents V the region is
  entered from: each window's block at a grid point, what the body leaves in the output block as a function of
  the three input blocks, the body's triple, and the pipeline's proof data with its body obligation.
-/
import proofs.«125242_j49744311222303_2_alg».proof.Proof.Gen.Kernel.Launch
import proofs.«125242_j49744311222303_2_alg».proof.Proof.Gen.Kernel.Skeleton
import proofs.«125242_j49744311222303_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rA1 : Rect S1x64x1024 := Rect.unit (s := S1x64x1024) ![0, 0, 0] S1x64x1024.size inb_S1x64x1024_S1x64x1024_0_0_0
abbrev rW1 : Rect S1024x1024 := Rect.unit (s := S1024x1024) ![0, 0] S1024x1024.size inb_S1024x1024_S1024x1024_0_0
abbrev rO1 : Rect S1x1024x1024 := Rect.unit (s := S1x1024x1024) ![0, 0, 0] S1x1024x1024.size inb_S1x1024x1024_S1x1024x1024_0_0_0

/-- The output block after the body, from the three input blocks: its one store. -/
def out1_3 (x0 : Vec F S1x64x1024 .bf16) (x1 : Vec F S1x64x1024 .f32) (x2 : Vec F S1024x1024 .bf16) : Vec F S1x1024x1024 .f32 :=
  View.canon [⟨rO1, k1_pay1 (View.ld x0 rA1) (View.ld x1 rA1) (View.ld x2 rW1)⟩]

/-- The store covers the block. -/
theorem cover1_3 (p0 : Vec F S1x1024x1024 .f32) (y : S1x1024x1024.Idx) :
    ∃ pc ∈ ([⟨rO1, p0⟩] : List (View.Piece (Elt F) S1x1024x1024 .f32)), y ∈ pc.1.set :=
  View.cover_of_tiled [⟨rO1, p0⟩] S1x1024x1024.size (by rfl) y

set_option maxHeartbeats 1000000 in
/-- The body on whole staging memrefs: the inputs are left as found, the output block holds out1_3 of them. -/
theorem sound_kernel1 (c : Dev nD) (E : Set ℕ) (i : grid1.Coords) (arg2 : Memref sig .tc .vmem S1x64x1024 .bf16) (harg2 : arg2.IsWhole)
    (arg3 : Memref sig .tc .vmem S1x64x1024 .f32) (harg3 : arg3.IsWhole) (arg4 : Memref sig .tc .vmem S1024x1024 .bf16) (harg4 : arg4.IsWhole)
    (arg5 : Memref sig .tc .vmem S1x1024x1024 .f32) (harg5 : arg5.IsWhole)
    (x0 : Vec F S1x64x1024 .bf16) (x1 : Vec F S1x64x1024 .f32) (x2 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__k2_kernel i arg2 harg2 arg3 harg3 arg4 harg4 arg5 harg5) K := by
  simp only [cc1__k2_kernel_eq_skeleton]; unfold cc1__k2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core c: the arrays as found; after the body at point t each input's
    buffer at its block and the output's at out1_3 of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BMain.lean ====
/-
  The whole program as a run: the buffer contents at every boundary of @main (the launch memory, after each stretch
  of host operations, after each of the two kernel regions — a region's arrays at what its write-backs leave), the two
  regions as segments over the thread state "every unscoped buffer at the boundary's contents", and the run itself:
  every weakly fair execution terminates with every unscoped buffer at the last boundary's contents, in particular
  the result array at what the second region's write-backs leave and each argument as launched.
-/
import proofs.«125242_j49744311222303_2_alg».proof.Proof.BFrame0b
import proofs.«125242_j49744311222303_2_alg».proof.Proof.BFrame1
import proofs.«125242_j49744311222303_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents the first region is entered from (after the three host stretches), at the TensorCore's references. -/
abbrev Ve0 : (c : Dev nD) → (b : Ref sig .tc) → Buf (Elt F) ((c : Thread nD τ).loc b) := fun c b => V3 m c b
/-- At the first region's exit: its arrays at what the pipeline leaves, every other buffer as entered. -/
def W4 (c : Dev nD) : Valuation τ sig (Elt F) :=
  Pipeline.withArrays spec0 c (V3 m c) fun w => (dat0 (Ve0 m) c).arrAt w cfg0.N
theorem W4_arr (c : Dev nD) (w : Fin cfg0.W) :
    W4 m c (Proc.devRef .tc (Pipeline.arrRef spec0 w)) = (dat0 (Ve0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
abbrev Ve1 : (c : Dev nD) → (b : Ref sig .tc) → Buf (Elt F) ((c : Thread nD τ).loc b) := fun c b => W4 m c b
theorem hF0 (c : Dev nD) (w : Fin cfg0.W) : (dat0 (Ve0 m) c).arrAt w cfg0.N = Ve1 m c (Pipeline.arrRef spec0 w) :=
  (W4_arr m c w).symm
theorem hrest0 (c : Dev nD) : ∀ b, b ∉ Finset.univ.image (Pipeline.arrRef spec0) → Ve1 m c b = Ve0 m c b :=
  fun b hb => W4_of_ne m c b fun w e => hb (Finset.mem_image.mpr ⟨w, Finset.mem_univ _, e⟩)

/-- At the second region's exit. -/
def W5 (c : Dev nD) : Valuation τ sig (Elt F) :=
  Pipeline.withArrays spec1 c (W4 m c) fun w => (dat1 (Ve1 m) c).arrAt w cfg1.N
theorem W5_arr (c : Dev nD) (w : Fin cfg1.W) :
    W5 m c (Proc.devRef .tc (Pipeline.arrRef spec1 w)) = (dat1 (Ve1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev Ve2 : (c : Dev nD) → (b : Ref sig .tc) → Buf (Elt F) ((c : Thread nD τ).loc b) := fun c b => W5 m c b
theorem hF1 (c : Dev nD) (w : Fin cfg1.W) : (dat1 (Ve1 m) c).arrAt w cfg1.N = Ve2 m c (Pipeline.arrRef spec1 w) :=
  (W5_arr m c w).symm
theorem hrest1 (c : Dev nD) : ∀ b, b ∉ Finset.univ.image (Pipeline.arrRef spec1) → Ve2 m c b = Ve1 m c b :=
  fun b hb => W5_of_ne m c b fun w e => hb (Finset.mem_image.mpr ⟨w, Finset.mem_univ _, e⟩)

/-- No host operation and no region writes an argument: the fold at an argument walks back to the launch memory. -/
theorem W5_main_arg0 (c : Dev nD) : W5 m c (Proc.devRef .tc main_arg0) = m ((c : Thread nD τ).loc main_arg0) :=
  (W5_of_ne m c main_arg0 (by decide)).trans <| (W4_arr m c 0).trans <| ((dat0 (Ve0 m) c).arrAt_in 0 rfl _).trans <| (A_eq0 (Ve0 m) c 0).trans <|
    (V3_of m c main_arg0 (by decide)).trans <| (V2_of m c main_arg0 (by decide)).trans <| (V1_of m c main_arg0 (by decide)).trans rfl
theorem W5_main_arg1 (c : Dev nD) : W5 m c (Proc.devRef .tc main_arg1) = m ((c : Thread nD τ).loc main_arg1) :=
  (W5_of_ne m c main_arg1 (by decide)).trans <| (W4_of_ne m c main_arg1 (by decide)).trans <|
    (V3_of m c main_arg1 (by decide)).trans <| (V2_of m c main_arg1 (by decide)).trans <| (V1_of m c main_arg1 (by decide)).trans rfl
theorem W5_main_arg2 (c : Dev nD) : W5 m c (Proc.devRef .tc main_arg2) = m ((c : Thread nD τ).loc main_arg2) :=
  (W5_of_ne m c main_arg2 (by decide)).trans <| (W4_of_ne m c main_arg2 (by decide)).trans <|
    (V3_of m c main_arg2 (by decide)).trans <| (V2_of m c main_arg2 (by decide)).trans <| (V1_of m c main_arg2 (by decide)).trans rfl
theorem W5_main_arg3 (c : Dev nD) : W5 m c (Proc.devRef .tc main_arg3) = m ((c : Thread nD τ).loc main_arg3) :=
  (W5_of_ne m c main_arg3 (by decide)).trans <| (W4_of_ne m c main_arg3 (by decide)).trans <|
    (V3_of m c main_arg3 (by decide)).trans <| (V2_of m c main_arg3 (by decide)).trans <| (V1_of m c main_arg3 (by decide)).trans rfl
theorem W5_main_arg4 (c : Dev nD) : W5 m c (Proc.devRef .tc main_arg4) = m ((c : Thread nD τ).loc main_arg4) :=
  (W5_of_ne m c main_arg4 (by decide)).trans <| (W4_of_ne m c main_arg4 (by decide)).trans <|
    (V3_of m c main_arg4 (by decide)).trans <| (V2_of m c main_arg4 (by decide)).trans <| (V1_of m c main_arg4 (by decide)).trans rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- The first region over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

set_option backward.isDefEq.respectTransparency.types false in
/-- THE RUN: every weakly fair execution of @main terminates, and every final memory holds every unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit_dev (pcfgs (F := F)) adm (pdats m) () cellOf_inj emb₁ defs₀ 𝒱₀ L lv m ρ main
    (segs m 𝒱₀ L lv E () (pdats m) (reg0 m) (reg1 m))
    (fun c Q => by
      rewrite [main_chain c, Pipeline.Seg.run_eq_chain,
        show (segs m 𝒱₀ L lv E () (pdats m) (reg0 m) (reg1 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- The run with the result named: the result array ends at what the second region's write-backs leave. -/
theorem run_value : θ_run defs (onTc (τ := τ) (main (F := F))) ⟨m, fun _ => 0, ρ⟩ (fun r => ∀ c : Dev nD,
      r.2.mem ((c.tc : Thread nD τ).loc main_v12) = (dat1 (Ve1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v12 (by decide))).trans (W5_arr m c 3),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Hand

end
-- ==== Proof.IFrame0.lean ====
/-
  The first kernel region (affinities, values, and the splat states accumulated over the four row tiles of a batch),
  at the buffer contents V the region is entered from: each window's block at a grid point, the two conditions of
  the body decided over the grid (first tile of a batch: the accumulator is zeroed; last tile: it is copied out),
  where the second output is idle, and the staging and scratch memrefs the runs are stated over.
-/
import proofs.«125242_j49744311222303_2_alg».proof.Proof.Gen.KernelIdeal.Launch
import proofs.«125242_j49744311222303_2_alg».proof.Proof.Gen.KernelIdeal.Skeleton
import proofs.«125242_j49744311222303_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The first condition: the tile is the first of its batch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second condition: the tile is the last of its batch. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The inputs and the first output are never idle; the second output is idle except at a batch's last tile,
    and is not written back where it is idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- One staging buffer of each output window, through which its contents are stated. -/
abbrev VO0_5 : View sig .tc .vmem S1x64x1024 .bf16 := (Memref.whole cc0_stg5_0 : Memref sig .tc .vmem S1x64x1024 .bf16).view
abbrev VO0_6 : View sig .tc .vmem S1x64x1024 .f32 := (Memref.whole cc0_stg6_0 : Memref sig .tc .vmem S1x64x1024 .f32).view
/-- Each window's current staging memref at point t, as the pipeline passes it, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x1024 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S64x1024 .f32 := Memref.whole cc0_scratch0
abbrev VS0_0 : View sig .tc .vmem S64x1024 .f32 := scM0_0.view

/-- The other scoped buffers of the core that are no staging buffer of this region: each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.KernelIdeal.Hand

end
-- ==== Proof.IRun0A.lean ====
/-
  The first kernel's body run whole in case A of its two conditions (first tile of a batch): on whole staging memrefs holding
  the input blocks, the body ends with the inputs as found and each stored buffer holding the pieces the run finds.
-/
import proofs.«125242_j49744311222303_2_alg».proof.Proof.IFrame0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i)
    (x0 : Vec F S1x1024x1024 .f32) (x1 : Vec F S64x1024 .bf16) (x2 : Vec F S1x64 .f32) (x3 : Vec F S1x64 .f32) (x4 : Vec F S1024x1024 .bf16) :
    Σ' (L5 : List (View.Piece (Elt F) S1x64x1024 .bf16)), { LS0 : List (View.Piece (Elt F) S64x1024 .f32) //
      ∀ (xi6 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9) K } := by
  refine ⟨?_, ?_, fun xi6 E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.KernelIdeal.Hand

end
-- ==== Proof.IRun0B.lean ====
/-
  The first kernel's body run whole in case B of its two conditions (a middle tile): on whole staging memrefs holding
  the input blocks, the body ends with the inputs as found and each stored buffer holding the pieces the run finds.
-/
import proofs.«125242_j49744311222303_2_alg».proof.Proof.IRun0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i)
    (x0 : Vec F S1x1024x1024 .f32) (x1 : Vec F S64x1024 .bf16) (x2 : Vec F S1x64 .f32) (x3 : Vec F S1x64 .f32) (x4 : Vec F S1024x1024 .bf16) (xs0 : Vec F S64x1024 .f32) :
    Σ' (L5 : List (View.Piece (Elt F) S1x64x1024 .bf16)), { LS0 : List (View.Piece (Elt F) S64x1024 .f32) //
      ∀ (xi6 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9) K } := by
  refine ⟨?_, ?_, fun xi6 E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.KernelIdeal.Hand

end
-- ==== Proof.IRun0C.lean ====
/-
  The first kernel's body run whole in case C of its two conditions (last tile of a batch): on whole staging memrefs holding
  the input blocks, the body ends with the inputs as found and each stored buffer holding the pieces the run finds.
-/
import proofs.«125242_j49744311222303_2_alg».proof.Proof.IRun0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i)
    (x0 : Vec F S1x1024x1024 .f32) (x1 : Vec F S64x1024 .bf16) (x2 : Vec F S1x64 .f32) (x3 : Vec F S1x64 .f32) (x4 : Vec F S1024x1024 .bf16) (xs0 : Vec F S64x1024 .f32) :
    Σ' (L5 : List (View.Piece (Elt F) S1x64x1024 .bf16)) (L6 : List (View.Piece (Elt F) S1x64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__k1_kernel i arg2 harg2 arg3 harg3 arg4 harg4 arg5 harg5 arg6 harg6 arg7 harg7 arg8 harg8 arg9 harg9) K } := by
  refine ⟨?_, ?_, ?_, fun E K => ?run⟩
  case run =>
    simp only [cc0__k1_kernel_eq_skeleton]; unfold cc0__k1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.IFrame0b.lean ====
/-
  The first kernel region's accumulation: what each case of the body leaves in the two output blocks and in the
  accumulator, point by point over the grid (the accumulator a tile finds is what the tile before left); the region
  invariant that carries the accumulator between points; the pipeline's proof data and its body obligation.
-/
import proofs.«125242_j49744311222303_2_alg».proof.Proof.IRun0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_A_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (y : S1x64x1024.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S1x64x1024.size (by sl_kernel_rfl) y
def out0_A_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) : Vec F S1x64x1024 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)
theorem scover0_A_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (y : S64x1024.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S64x1024.size (by sl_kernel_rfl) y
def sout0_A_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) : Vec F S64x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

theorem cover0_B_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S1x64x1024.Idx) :
    ∃ pc ∈ (kernelRun0_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).1 S1x64x1024.size (by sl_kernel_rfl) y
def out0_B_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S1x64x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)
theorem scover0_B_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S64x1024.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S64x1024.size (by sl_kernel_rfl) y
def sout0_B_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S64x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0).2.1)

theorem cover0_C_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S1x64x1024.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S1x64x1024.size (by sl_kernel_rfl) y
def out0_C_5 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S1x64x1024 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)
theorem scover0_C_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S64x1024.Idx) :
    ∃ pc ∈ (kernelRun0_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.2.1 S64x1024.size (by sl_kernel_rfl) y
def sout0_C_0 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S64x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0).2.2.1)

theorem cover0_C_6 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) (y : S1x64x1024.Idx) :
    ∃ pc ∈ (kernelRun0_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.1 S1x64x1024.size (by sl_kernel_rfl) y
def out0_C_6 (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) : Vec F S1x64x1024 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xs0).2.1)

/-- A placeholder for the second output's block where the window is idle: nothing consults it. -/
def junk6 : Vec F S1x64x1024 .f32 := VO0_6.read (Elt F) VO0_6.junk

/-- The three buffers (first output, second output, accumulator) after a point of each case. -/
def outA (c : Dev nD) (t : Fin cfg0.N) (hc0 : cond0_0 (grid0.coords t)) (hc1 : ¬cond0_1 (grid0.coords t)) : Vec F S1x64x1024 .bf16 × Vec F S1x64x1024 .f32 × Vec F S64x1024 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t), junk6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t))
def outB (c : Dev nD) (t : Fin cfg0.N) (hc0 : ¬cond0_0 (grid0.coords t)) (hc1 : ¬cond0_1 (grid0.coords t)) (xs0 : Vec F S64x1024 .f32) : Vec F S1x64x1024 .bf16 × Vec F S1x64x1024 .f32 × Vec F S64x1024 .f32 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0, junk6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0)
def outC (c : Dev nD) (t : Fin cfg0.N) (hc0 : ¬cond0_0 (grid0.coords t)) (hc1 : cond0_1 (grid0.coords t)) (xs0 : Vec F S64x1024 .f32) : Vec F S1x64x1024 .bf16 × Vec F S1x64x1024 .f32 × Vec F S64x1024 .f32 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 (iblk0 V c 0 t) (iblk0 V c 1 t) (iblk0 V c 2 t) (iblk0 V c 3 t) (iblk0 V c 4 t) xs0)

theorem notc1_of_c0 (t : Fin cfg0.N) (h0 : t.val % 4 = 0) : ¬cond0_1 (grid0.coords t) := fun h => by
  have h' := (hcond0_1 t).mp h; omega
theorem notc0_of (t : Fin cfg0.N) (h0 : ¬t.val % 4 = 0) : ¬cond0_0 (grid0.coords t) := fun h => h0 ((hcond0_0 t).mp h)
theorem notc1_of (t : Fin cfg0.N) (h1 : ¬t.val % 4 = 3) : ¬cond0_1 (grid0.coords t) := fun h => h1 ((hcond0_1 t).mp h)

/-- THE ACCUMULATION: the three buffers after the body at position n. -/
def outsAt0 (c : Dev nD) : (n : ℕ) → n < cfg0.N → Vec F S1x64x1024 .bf16 × Vec F S1x64x1024 .f32 × Vec F S64x1024 .f32
  | 0, hn => outA V c ⟨0, hn⟩ ((hcond0_0 ⟨0, hn⟩).mpr (Nat.zero_mod _)) (notc1_of_c0 ⟨0, hn⟩ (Nat.zero_mod _))
  | n + 1, hn =>
    if h0 : (n + 1) % 4 = 0 then
      outA V c ⟨n + 1, hn⟩ ((hcond0_0 ⟨n + 1, hn⟩).mpr h0) (notc1_of_c0 ⟨n + 1, hn⟩ h0)
    else if h1 : (n + 1) % 4 = 3 then
      outC V c ⟨n + 1, hn⟩ (notc0_of ⟨n + 1, hn⟩ h0) ((hcond0_1 ⟨n + 1, hn⟩).mpr h1) (outsAt0 c n (Nat.lt_of_succ_lt hn)).2.2
    else
      outB V c ⟨n + 1, hn⟩ (notc0_of ⟨n + 1, hn⟩ h0) (notc1_of ⟨n + 1, hn⟩ h1) (outsAt0 c n (Nat.lt_of_succ_lt hn)).2.2

theorem outsAt0_A (c : Dev nD) (t : Fin cfg0.N) (h0 : t.val % 4 = 0) :
    outsAt0 V c t.val t.isLt = outA V c t ((hcond0_0 t).mpr h0) (notc1_of_c0 t h0) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = outB V c t (notc0_of t h0) (notc1_of t h1) (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = outC V c t (notc0_of t h0) ((hcond0_1 t).mpr h1) (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region invariant before position n: before the first point the class's; afterwards the accumulator at what
    the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ Rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  by_cases h0 : t.val % 4 = 0
  · have hc0 : cond0_0 (grid0.coords t) := (hcond0_0 t).mpr h0
    have hc1 : ¬cond0_1 (grid0.coords t) := notc1_of_c0 t h0
    rw [Dat.leavesExact_idle (dat0 V c) 6 t (idleAt0_6 t hc1) (noFlush0_6 t hc1)]
    rw [outsAt0_A V c t h0]
    unfold outA out0_A_5 sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ hc0 hc1 (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 _ _ _ _ _ _ _ _ _ _ _ _ _ _ _ _ _ _ _ _ _ _ _ _ _)
      iexists _; iexact H6
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ hc0 hc1 (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 _ _ _ _ _ _ _ _ _ _ _ _ _ _ _ _ _ _ _ _ _ _ _ _ _)
      iexists _; iexact H6
  · have hc0 : ¬cond0_0 (grid0.coords t) := notc0_of t h0
    have hz : t.val ≠ 0 := fun e => h0 (by rw [e])
    by_cases h1 : t.val % 4 = 3
    · have hc1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6 t hc1], after0_6]
      rw [outsAt0_C V c t h0 h1]
      unfold outC out0_C_5 out0_C_6 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ hc0 hc1 (iblk0 V c 0 t) (iblk0 V c 1 t) (iblk0 V c 2 t) (iblk0 V c 3 t) (iblk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 _ _ _ _ _ _ _ _ _ _ _ _ _ _ _ _ _ _ _ _ _ _ _ _ _ _)
      unfold owns; iexists _; isplitr
      swap; · iexact H6
      ipureintro; exact View.read_writes_of_cover _ _ _ _ _ (cover0_C_6 _ _ _ _ _ _ _ _ _ _ _ _ _ _ _ _ _ _ _ _ _ _ _ _ _ _)
    · have hc1 : ¬cond0_1 (grid0.coords t) := notc1_of t h1
      rw [Dat.leavesExact_idle (dat0 V c) 6 t (idleAt0_6 t hc1) (noFlush0_6 t hc1)]
      rw [outsAt0_B V c t h0 h1]
      unfold outB out0_B_5 sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ hc0 hc1 (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 _ _ _ _ _ _ _ _ _ _ _ _ _ _ _ _ _ _ _ _ _ _ _ _ _ _)
      iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, HR⟩, Hg⟩
  isplitl [HS0 HR]
  · isplitl [HS0]
    · iexists _; iexact HS0
    iexact HR
  iexact Hg

end Cert.KernelIdeal.Hand

end
-- ==== Proof.IFrame1.lean ====
/-
  The second kernel region (token outputs times the output projection), at the buffer contents V the region is
  entered from: each window's block at a grid point, what the body leaves in the output block as a function of
  the three input blocks, the body's triple, and the pipeline's proof data with its body obligation.
-/
import proofs.«125242_j49744311222303_2_alg».proof.Proof.Gen.KernelIdeal.Launch
import proofs.«125242_j49744311222303_2_alg».proof.Proof.Gen.KernelIdeal.Skeleton
import proofs.«125242_j49744311222303_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rA1 : Rect S1x64x1024 := Rect.unit (s := S1x64x1024) ![0, 0, 0] S1x64x1024.size inb_S1x64x1024_S1x64x1024_0_0_0
abbrev rW1 : Rect S1024x1024 := Rect.unit (s := S1024x1024) ![0, 0] S1024x1024.size inb_S1024x1024_S1024x1024_0_0
abbrev rO1 : Rect S1x1024x1024 := Rect.unit (s := S1x1024x1024) ![0, 0, 0] S1x1024x1024.size inb_S1x1024x1024_S1x1024x1024_0_0_0

/-- The output block after the body, from the three input blocks: its one store. -/
def out1_3 (x0 : Vec F S1x64x1024 .bf16) (x1 : Vec F S1x64x1024 .f32) (x2 : Vec F S1024x1024 .bf16) : Vec F S1x1024x1024 .f32 :=
  View.canon [⟨rO1, k1_pay1 (View.ld x0 rA1) (View.ld x1 rA1) (View.ld x2 rW1)⟩]

/-- The store covers the block. -/
theorem cover1_3 (p0 : Vec F S1x1024x1024 .f32) (y : S1x1024x1024.Idx) :
    ∃ pc ∈ ([⟨rO1, p0⟩] : List (View.Piece (Elt F) S1x1024x1024 .f32)), y ∈ pc.1.set :=
  View.cover_of_tiled [⟨rO1, p0⟩] S1x1024x1024.size (by rfl) y

set_option maxHeartbeats 1000000 in
/-- The body on whole staging memrefs: the inputs are left as found, the output block holds out1_3 of them. -/
theorem sound_kernel1 (c : Dev nD) (E : Set ℕ) (i : grid1.Coords) (arg2 : Memref sig .tc .vmem S1x64x1024 .bf16) (harg2 : arg2.IsWhole)
    (arg3 : Memref sig .tc .vmem S1x64x1024 .f32) (harg3 : arg3.IsWhole) (arg4 : Memref sig .tc .vmem S1024x1024 .bf16) (harg4 : arg4.IsWhole)
    (arg5 : Memref sig .tc .vmem S1x1024x1024 .f32) (harg5 : arg5.IsWhole)
    (x0 : Vec F S1x64x1024 .bf16) (x1 : Vec F S1x64x1024 .f32) (x2 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__k2_kernel i arg2 harg2 arg3 harg3 arg4 harg4 arg5 harg5) K := by
  simp only [cc1__k2_kernel_eq_skeleton]; unfold cc1__k2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core c: the arrays as found; after the body at point t each input's
    buffer at its block and the output's at out1_3 of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IMain.lean ====
/-
  The whole program as a run: the buffer contents at every boundary of @main (the launch memory, after each stretch
  of host operations, after each of the two kernel regions — a region's arrays at what its write-backs leave), the two
  regions as segments over the thread state "every unscoped buffer at the boundary's contents", and the run itself:
  every weakly fair execution terminates with every unscoped buffer at the last boundary's contents, in particular
  the result array at what the second region's write-backs leave and each argument as launched.
-/
import proofs.«125242_j49744311222303_2_alg».proof.Proof.IFrame0b
import proofs.«125242_j49744311222303_2_alg».proof.Proof.IFrame1
import proofs.«125242_j49744311222303_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents the first region is entered from (after the three host stretches), at the TensorCore's references. -/
abbrev Ve0 : (c : Dev nD) → (b : Ref sig .tc) → Buf (Elt F) ((c : Thread nD τ).loc b) := fun c b => V3 m c b
/-- At the first region's exit: its arrays at what the pipeline leaves, every other buffer as entered. -/
def W4 (c : Dev nD) : Valuation τ sig (Elt F) :=
  Pipeline.withArrays spec0 c (V3 m c) fun w => (dat0 (Ve0 m) c).arrAt w cfg0.N
theorem W4_arr (c : Dev nD) (w : Fin cfg0.W) :
    W4 m c (Proc.devRef .tc (Pipeline.arrRef spec0 w)) = (dat0 (Ve0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
abbrev Ve1 : (c : Dev nD) → (b : Ref sig .tc) → Buf (Elt F) ((c : Thread nD τ).loc b) := fun c b => W4 m c b
theorem hF0 (c : Dev nD) (w : Fin cfg0.W) : (dat0 (Ve0 m) c).arrAt w cfg0.N = Ve1 m c (Pipeline.arrRef spec0 w) :=
  (W4_arr m c w).symm
theorem hrest0 (c : Dev nD) : ∀ b, b ∉ Finset.univ.image (Pipeline.arrRef spec0) → Ve1 m c b = Ve0 m c b :=
  fun b hb => W4_of_ne m c b fun w e => hb (Finset.mem_image.mpr ⟨w, Finset.mem_univ _, e⟩)

/-- At the second region's exit. -/
def W5 (c : Dev nD) : Valuation τ sig (Elt F) :=
  Pipeline.withArrays spec1 c (W4 m c) fun w => (dat1 (Ve1 m) c).arrAt w cfg1.N
theorem W5_arr (c : Dev nD) (w : Fin cfg1.W) :
    W5 m c (Proc.devRef .tc (Pipeline.arrRef spec1 w)) = (dat1 (Ve1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev Ve2 : (c : Dev nD) → (b : Ref sig .tc) → Buf (Elt F) ((c : Thread nD τ).loc b) := fun c b => W5 m c b
theorem hF1 (c : Dev nD) (w : Fin cfg1.W) : (dat1 (Ve1 m) c).arrAt w cfg1.N = Ve2 m c (Pipeline.arrRef spec1 w) :=
  (W5_arr m c w).symm
theorem hrest1 (c : Dev nD) : ∀ b, b ∉ Finset.univ.image (Pipeline.arrRef spec1) → Ve2 m c b = Ve1 m c b :=
  fun b hb => W5_of_ne m c b fun w e => hb (Finset.mem_image.mpr ⟨w, Finset.mem_univ _, e⟩)

/-- No host operation and no region writes an argument: the fold at an argument walks back to the launch memory. -/
theorem W5_main_arg0 (c : Dev nD) : W5 m c (Proc.devRef .tc main_arg0) = m ((c : Thread nD τ).loc main_arg0) :=
  (W5_of_ne m c main_arg0 (by decide)).trans <| (W4_arr m c 0).trans <| ((dat0 (Ve0 m) c).arrAt_in 0 rfl _).trans <| (A_eq0 (Ve0 m) c 0).trans <|
    (V3_of m c main_arg0 (by decide)).trans <| (V2_of m c main_arg0 (by decide)).trans <| (V1_of m c main_arg0 (by decide)).trans rfl
theorem W5_main_arg1 (c : Dev nD) : W5 m c (Proc.devRef .tc main_arg1) = m ((c : Thread nD τ).loc main_arg1) :=
  (W5_of_ne m c main_arg1 (by decide)).trans <| (W4_of_ne m c main_arg1 (by decide)).trans <|
    (V3_of m c main_arg1 (by decide)).trans <| (V2_of m c main_arg1 (by decide)).trans <| (V1_of m c main_arg1 (by decide)).trans rfl
theorem W5_main_arg2 (c : Dev nD) : W5 m c (Proc.devRef .tc main_arg2) = m ((c : Thread nD τ).loc main_arg2) :=
  (W5_of_ne m c main_arg2 (by decide)).trans <| (W4_of_ne m c main_arg2 (by decide)).trans <|
    (V3_of m c main_arg2 (by decide)).trans <| (V2_of m c main_arg2 (by decide)).trans <| (V1_of m c main_arg2 (by decide)).trans rfl
theorem W5_main_arg3 (c : Dev nD) : W5 m c (Proc.devRef .tc main_arg3) = m ((c : Thread nD τ).loc main_arg3) :=
  (W5_of_ne m c main_arg3 (by decide)).trans <| (W4_of_ne m c main_arg3 (by decide)).trans <|
    (V3_of m c main_arg3 (by decide)).trans <| (V2_of m c main_arg3 (by decide)).trans <| (V1_of m c main_arg3 (by decide)).trans rfl
theorem W5_main_arg4 (c : Dev nD) : W5 m c (Proc.devRef .tc main_arg4) = m ((c : Thread nD τ).loc main_arg4) :=
  (W5_of_ne m c main_arg4 (by decide)).trans <| (W4_of_ne m c main_arg4 (by decide)).trans <|
    (V3_of m c main_arg4 (by decide)).trans <| (V2_of m c main_arg4 (by decide)).trans <| (V1_of m c main_arg4 (by decide)).trans rfl

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- The first region over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

set_option backward.isDefEq.respectTransparency.types false in
/-- THE RUN: every weakly fair execution of @main terminates, and every final memory holds every unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit_dev (pcfgs (F := F)) adm (pdats m) () cellOf_inj emb₁ defs₀ 𝒱₀ L lv m ρ main
    (segs m 𝒱₀ L lv E () (pdats m) (reg0 m) (reg1 m))
    (fun c Q => by
      rewrite [main_chain c, Pipeline.Seg.run_eq_chain,
        show (segs m 𝒱₀ L lv E () (pdats m) (reg0 m) (reg1 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- The run with the result named: the result array ends at what the second region's write-backs leave. -/
theorem run_value : θ_run defs (onTc (τ := τ) (main (F := F))) ⟨m, fun _ => 0, ρ⟩ (fun r => ∀ c : Dev nD,
      r.2.mem ((c.tc : Thread nD τ).loc main_v12) = (dat1 (Ve1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v12 (by decide))).trans (W5_arr m c 3),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Hand

end
-- ==== Proof.IPieces.lean ====
/-
  What each case of the first kernel's body leaves in its buffers, as the body's pure arithmetic of the input blocks
  (and, for the accumulator, of what the tile before left): the first output block is always the transposed affinities
  of the tile; the accumulator is what it held — zero at a batch's first tile — plus the tile's contribution; the second
  output block, stored at a batch's last tile, is the accumulator just stored.
-/
import proofs.«125242_j49744311222303_2_alg».proof.Proof.IFrame0b
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's contribution added onto the accumulator contents a. -/
abbrev accOf (x0 : Vec F S1x1024x1024 .f32) (x1 : Vec F S64x1024 .bf16) (x2 x3 : Vec F S1x64 .f32) (x4 : Vec F S1024x1024 .bf16)
    (a : Vec F S64x1024 .f32) : Vec F S64x1024 .f32 :=
  k0_pay2 (k0_pay6 x0) (k0_pay7 x0 x1 x2 x3) x4 a
/-- The transposed affinities of the tile. -/
abbrev affTOf (x0 : Vec F S1x1024x1024 .f32) (x1 : Vec F S64x1024 .bf16) (x2 x3 : Vec F S1x64 .f32) : Vec F S1x64x1024 .bf16 :=
  k0_pay1 (k0_pay8 x0 x1 x2 x3)

theorem soutA_eq (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) :
    sout0_A_0 c i arg2 harg2 arg3 harg3 arg4 harg4 arg5 harg5 arg6 harg6 arg7 harg7 arg8 harg8 arg9 harg9 hc0 hc1 x0 x1 x2 x3 x4 = accOf x0 x1 x2 x3 x4 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  try sl_unfold_words
  rw [View.canon_cons_unit_zero hz2, View.readCov_unit_zero (S := S64x1024) _ hz2]
  simp only [View.readAt_eq_ld, harg2.read_unread, harg3.read_unread, harg4.read_unread, harg5.read_unread, harg6.read_unread, View.ld_unit_zero (S := S1x1024x1024) hz3, View.ld_unit_zero (S := S64x1024) hz2, View.ld_unit_zero (S := S1x64) hz2, View.ld_unit_zero (S := S1024x1024) hz2]

theorem soutB_eq (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) :
    sout0_B_0 c i arg2 harg2 arg3 harg3 arg4 harg4 arg5 harg5 arg6 harg6 arg7 harg7 arg8 harg8 arg9 harg9 hc0 hc1 x0 x1 x2 x3 x4 xs0 = accOf x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0)]
  unfold kernelRun0_B
  dsimp only
  try sl_unfold_words
  rw [View.canon_unit_zero hz2]
  simp only [View.readAt_eq_ld, harg2.read_unread, harg3.read_unread, harg4.read_unread, harg5.read_unread, harg6.read_unread, View.ld_unit_zero (S := S1x1024x1024) hz3, View.ld_unit_zero (S := S64x1024) hz2, View.ld_unit_zero (S := S1x64) hz2, View.ld_unit_zero (S := S1024x1024) hz2, harg9.read_unread]

theorem soutC_eq (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) :
    sout0_C_0 c i arg2 harg2 arg3 harg3 arg4 harg4 arg5 harg5 arg6 harg6 arg7 harg7 arg8 harg8 arg9 harg9 hc0 hc1 x0 x1 x2 x3 x4 xs0 = accOf x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0)]
  unfold kernelRun0_C
  dsimp only
  try sl_unfold_words
  rw [View.canon_unit_zero hz2]
  simp only [View.readAt_eq_ld, harg2.read_unread, harg3.read_unread, harg4.read_unread, harg5.read_unread, harg6.read_unread, View.ld_unit_zero (S := S1x1024x1024) hz3, View.ld_unit_zero (S := S64x1024) hz2, View.ld_unit_zero (S := S1x64) hz2, View.ld_unit_zero (S := S1024x1024) hz2, harg9.read_unread]

theorem out6C_eq (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) :
    out0_C_6 c i arg2 harg2 arg3 harg3 arg4 harg4 arg5 harg5 arg6 harg6 arg7 harg7 arg8 harg8 arg9 harg9 hc0 hc1 x0 x1 x2 x3 x4 xs0 = k0_pay3 (accOf x0 x1 x2 x3 x4 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 xs0)]
  unfold kernelRun0_C
  dsimp only
  try sl_unfold_words
  rw [View.canon_unit_zero hz3, View.readCov_unit_zero (S := S64x1024) _ hz2]
  simp only [View.readAt_eq_ld, harg2.read_unread, harg3.read_unread, harg4.read_unread, harg5.read_unread, harg6.read_unread, View.ld_unit_zero (S := S1x1024x1024) hz3, View.ld_unit_zero (S := S64x1024) hz2, View.ld_unit_zero (S := S1x64) hz2, View.ld_unit_zero (S := S1024x1024) hz2, harg9.read_unread]

theorem out5A_eq (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : cond0_0 i) (hc1 : ¬cond0_1 i) (x0 : Vec F S1x1024x1024 .f32) (x1 : Vec F S64x1024 .bf16) (x2 : Vec F S1x64 .f32) (x3 : Vec F S1x64 .f32) (x4 : Vec F S1024x1024 .bf16) :
    out0_A_5 c i arg2 harg2 arg3 harg3 arg4 harg4 arg5 harg5 arg6 harg6 arg7 harg7 arg8 harg8 arg9 harg9 hc0 hc1 x0 x1 x2 x3 x4 = affTOf x0 x1 x2 x3 := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  try sl_unfold_words
  rw [View.canon_unit_zero hz3]
  simp only [View.readAt_eq_ld, harg2.read_unread, harg3.read_unread, harg4.read_unread, harg5.read_unread, harg6.read_unread, View.ld_unit_zero (S := S1x1024x1024) hz3, View.ld_unit_zero (S := S64x1024) hz2, View.ld_unit_zero (S := S1x64) hz2, View.ld_unit_zero (S := S1024x1024) hz2]

theorem out5B_eq (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : ¬cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) :
    out0_B_5 c i arg2 harg2 arg3 harg3 arg4 harg4 arg5 harg5 arg6 harg6 arg7 harg7 arg8 harg8 arg9 harg9 hc0 hc1 x0 x1 x2 x3 x4 xs0 = affTOf x0 x1 x2 x3 := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0)]
  unfold kernelRun0_B
  dsimp only
  try sl_unfold_words
  rw [View.canon_unit_zero hz3]
  simp only [View.readAt_eq_ld, harg2.read_unread, harg3.read_unread, harg4.read_unread, harg5.read_unread, harg6.read_unread, View.ld_unit_zero (S := S1x1024x1024) hz3, View.ld_unit_zero (S := S64x1024) hz2, View.ld_unit_zero (S := S1x64) hz2, View.ld_unit_zero (S := S1024x1024) hz2]

theorem out5C_eq (c : Dev nD) (i : grid0.Coords) (arg2 : Memref sig .tc .vmem S1x1024x1024 .f32) (harg2 : arg2.IsWhole) (arg3 : Memref sig .tc .vmem S64x1024 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1024 .bf16) (harg6 : arg6.IsWhole) (arg7 : Memref sig .tc .vmem S1x64x1024 .bf16) (harg7 : arg7.IsWhole) (arg8 : Memref sig .tc .vmem S1x64x1024 .f32) (harg8 : arg8.IsWhole) (arg9 : Memref sig .tc .vmem S64x1024 .f32) (harg9 : arg9.IsWhole) (hc0 : ¬cond0_0 i) (hc1 : cond0_1 i) (x0 : Vec F S1x1024x1024 .f32) (x1 : Vec F S64x1024 .bf16) (x2 : Vec F S1x64 .f32) (x3 : Vec F S1x64 .f32) (x4 : Vec F S1024x1024 .bf16) (xs0 : Vec F S64x1024 .f32) :
    out0_C_5 c i arg2 harg2 arg3 harg3 arg4 harg4 arg5 harg5 arg6 harg6 arg7 harg7 arg8 harg8 arg9 harg9 hc0 hc1 x0 x1 x2 x3 x4 xs0 = affTOf x0 x1 x2 x3 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0)]
  unfold kernelRun0_C
  dsimp only
  try sl_unfold_words
  rw [View.canon_unit_zero hz3]
  simp only [View.readAt_eq_ld, harg2.read_unread, harg3.read_unread, harg4.read_unread, harg5.read_unread, harg6.read_unread, View.ld_unit_zero (S := S1x1024x1024) hz3, View.ld_unit_zero (S := S64x1024) hz2, View.ld_unit_zero (S := S1x64) hz2, View.ld_unit_zero (S := S1024x1024) hz2]

end Cert.KernelIdeal.Hand

end
-- ==== Proof.Spec.lean ====
/-
  The splat-attention layer as one function of its five argument arrays, on the extended reals.

  For a token row x (1024 reals) and the 64 centres C k, scales s k and squared centre norms c2 k:
    d2 k  = max (|x|² − 2·⟨x, C k⟩ + c2 k) 0
    e  k  = exp (−½ · d2 k / (s k · s k))
    aff k = e k / (Σ_k' e k' + ε)
  and then, per batch b:  val = X·Wvᵀ,  splat b k = Σ_s aff b s k · val b s,
  tok b s = Σ_k aff b s k · splat b k,  out = tok·Woᵀ.
  Every sum is a plain finite sum over the axis's coordinates; no law beyond this spelling is used here.
-/
import Idealize.ShloMosaic.PureOps.Ideal
import Idealize.ShloMosaic.Lib.ValueIdx

noncomputable section

namespace Cert.Splat

open Idealize.ShloMosaic Idealize.ShloMosaic.ValueIdx

abbrev SX : Shape := ⟨3, ![4, 4096, 1024]⟩
abbrev SC : Shape := ⟨2, ![64, 1024]⟩
abbrev SL : Shape := ⟨1, ![64]⟩
abbrev SW : Shape := ⟨2, ![1024, 1024]⟩

/-- The literals both programs spell: 2, −½, the ε of the normalisation, 0.1 and 2 of the clip, and 0. -/
abbrev two : EReal := Ideal.ofBits .f32 0x40000000#32
abbrev mhalf : EReal := Ideal.ofBits .f32 0xBF000000#32
abbrev eps : EReal := Ideal.ofBits .f32 0x322BCC77#32
abbrev lo : EReal := Ideal.ofBits .f32 0x3DCCCCCD#32
abbrev zero : EReal := Ideal.ofBits .f32 0x00000000#32

/-- A scale: the exponential of the log-scale clipped into [0.1, 2]. -/
def scale (LS : SL.Idx → EReal) (k : Fin 64) : EReal := min two (max lo (Ideal.exp (LS (ix1 k))))

/-- A centre's squared norm, summed from the literal zero. -/
def c2 (C : SC.Idx → EReal) (k : Fin 64) : EReal := zero + ∑ d : Fin 1024, C (ix2 k d) * C (ix2 k d)

/-- The unnormalised affinity of a token row to centre k. -/
def erow (xr : Fin 1024 → EReal) (C : SC.Idx → EReal) (cc sc : Fin 64 → EReal) (k : Fin 64) : EReal :=
  Ideal.exp (Ideal.div (mhalf * max ((∑ d : Fin 1024, xr d * xr d) - two * (∑ d : Fin 1024, xr d * C (ix2 k d)) + cc k) zero)
    (sc k * sc k))

/-- The normalised affinity of a token row to centre k. -/
def affRow (xr : Fin 1024 → EReal) (C : SC.Idx → EReal) (cc sc : Fin 64 → EReal) (k : Fin 64) : EReal :=
  Ideal.div (erow xr C cc sc k) ((∑ k' : Fin 64, erow xr C cc sc k') + eps)

variable (X : SX.Idx → EReal) (C : SC.Idx → EReal) (LS : SL.Idx → EReal) (Wv Wo : SW.Idx → EReal)

def aff (b : Fin 4) (s : Fin 4096) (k : Fin 64) : EReal :=
  affRow (fun d => X (ix3 b s d)) C (c2 C) (scale LS) k

def val (b : Fin 4) (s : Fin 4096) (e : Fin 1024) : EReal := ∑ d : Fin 1024, X (ix3 b s d) * Wv (ix2 e d)

def splat (b : Fin 4) (k : Fin 64) (e : Fin 1024) : EReal := ∑ s : Fin 4096, aff X C LS b s k * val X Wv b s e

def tok (b : Fin 4) (s : Fin 4096) (e : Fin 1024) : EReal := ∑ k : Fin 64, aff X C LS b s k * splat X C LS Wv b k e

/-- The layer's output as one array. -/
def G : SX.Idx → EReal := fun i => ∑ e : Fin 1024, tok X C LS Wv (i 0) (i 1) e * Wo (ix2 (i 2) e)

end Cert.Splat

end
-- ==== Proof.LibMatmulT.lean ====
/-
  A matrix product that contracts the LAST axis of both operands, [a, K] × [b, K] → [a, b], accumulated into the zero
  matrix and read at an entry over the extended reals: entry (i, j) is the sum over k of the left operand at (i, k)
  times the right operand at (j, k) — the product of the left matrix with the transpose of the right one.
-/
import Idealize.ShloMosaic.Lib.ValueIdx
import Idealize.ShloMosaic.PureOps.Ideal.Laws

open scoped BigOperators

namespace Idealize.ShloMosaic.ValueIdx

open Idealize.ShloMosaic

/-- Let the dimension numbers `D` of a product [a, K] × [b, K] → [a, b] contract one axis of extent `K` (`hr`, `hs`), and let
    the operand indices they name at result index `j` and contraction index `q` be (j₀, q) on the left (`hl0`, `hl1`) and
    (j₁, q) on the right (`hr0`, `hr1`). Then the product into the zero accumulator, read at (i, j) over the extended reals,
    is `∑ k, lhs (i, k) * rhs (j, k)`: the contraction's index set is matched with `Fin K` and the sum re-indexed. -/
theorem matmulT_zero_apply {a K b : ℕ} {φ₁ φ₂ : FTy}
    (D : DotDims ⟨2, ![a, K]⟩ ⟨2, ![b, K]⟩ ⟨2, ![a, b]⟩) (prec : Option ContractPrecision)
    (hr : D.contr.rank = 1) (hs : D.contr.size ⟨0, by omega⟩ = K)
    (hl0 : ∀ (j : (⟨2, ![a, b]⟩ : Shape).Idx) (q : D.contr.Idx), (D.lhsIdx j q 0).val = (j 0).val)
    (hl1 : ∀ (j : (⟨2, ![a, b]⟩ : Shape).Idx) (q : D.contr.Idx), (D.lhsIdx j q 1).val = (q ⟨0, by omega⟩).val)
    (hr0 : ∀ (j : (⟨2, ![a, b]⟩ : Shape).Idx) (q : D.contr.Idx), (D.rhsIdx j q 0).val = (j 1).val)
    (hr1 : ∀ (j : (⟨2, ![a, b]⟩ : Shape).Idx) (q : D.contr.Idx), (D.rhsIdx j q 1).val = (q ⟨0, by omega⟩).val)
    (lhs : FVec Ideal ⟨2, ![a, K]⟩ φ₁) (rhs : FVec Ideal ⟨2, ![b, K]⟩ φ₂) (i : Fin a) (j : Fin b) :
    matmul D prec lhs rhs (constant (F := Ideal) ⟨2, ![a, b]⟩ .f32 0x00000000#32) (ix2 i j)
      = ∑ k : Fin K, lhs (ix2 i k) * rhs (ix2 j k) := by
  show FloatOps.matmul D prec lhs rhs (constant (F := Ideal) ⟨2, ![a, b]⟩ .f32 0x00000000#32) (ix2 i j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun ax => Fin.ext (by
    match ax with
    | ⟨0, _⟩ => exact hl0 _ _
    | ⟨1, _⟩ => exact (hl1 _ _).trans hk)
  have er : D.rhsIdx (ix2 i j) ((contrEquiv1 D K hr hs).symm k) = ix2 j k := funext fun ax => Fin.ext (by
    match ax with
    | ⟨0, _⟩ => exact hr0 _ _
    | ⟨1, _⟩ => exact (hr1 _ _).trans hk)
  rw [el, er]

end Idealize.ShloMosaic.ValueIdx
-- ==== Proof.LibMatmulK.lean ====
/-
  Rank-2 matrix products accumulated into the zero matrix, read at an entry over the extended reals: two whose LEFT
  operand is contracted along its row axis, and the plain product,
    [K, a] × [b, K] → [a, b]   entry (i, j) = ∑ k, lhs (k, i) · rhs (j, k)      (transpose of the left times transpose of the right)
    [K, a] × [K, b] → [a, b]   entry (i, j) = ∑ k, lhs (k, i) · rhs (k, j)      (transpose of the left times the right)
    [a, K] × [K, b] → [a, b]   entry (i, j) = ∑ k, lhs (i, k) · rhs (k, j)      (the left times the right)
  The sums run over the contracted extent itself, not over the contraction's own index type.
-/
import Idealize.ShloMosaic.PureOps.Ideal.Laws
import Idealize.ShloMosaic.Lib.ValueIdx

open scoped BigOperators

noncomputable section

namespace Cert.LibMatmulK

open Idealize.ShloMosaic Idealize.ShloMosaic.ValueIdx

/-- A product `[K, a] × [b, K] → [a, b]` into a zero accumulator at entry `(i, j)`: the dimension numbers contract one
    axis of extent `K` (`hr`, `hs`) and pair, at result index `y` and contraction index `q`, the left entry `(q, y₀)`
    (`hl0`, `hl1`) with the right entry `(y₁, q)` (`hr0`, `hr1`); the contraction's index set is matched with `Fin K`. -/
theorem matmul_KA_BK_zero {a K b : Nat} {φ₁ φ₂ : FTy}
    (d : DotDims ⟨2, ![K, a]⟩ ⟨2, ![b, K]⟩ ⟨2, ![a, b]⟩) (prec : Option ContractPrecision)
    (hr : d.contr.rank = 1) (hs : d.contr.size ⟨0, by omega⟩ = K)
    (hl0 : ∀ y q, (d.lhsIdx y q 0).val = (q ⟨0, by omega⟩).val)
    (hl1 : ∀ y q, (d.lhsIdx y q 1).val = (y 0).val)
    (hr0 : ∀ y q, (d.rhsIdx y q 0).val = (y 1).val)
    (hr1 : ∀ y q, (d.rhsIdx y q 1).val = (q ⟨0, by omega⟩).val)
    (lhs : FVec Ideal ⟨2, ![K, a]⟩ φ₁) (rhs : FVec Ideal ⟨2, ![b, K]⟩ φ₂) (i : Fin a) (j : Fin b) :
    FloatOps.matmul d prec lhs rhs (constant ⟨2, ![a, b]⟩ .f32 0x00000000#32) (ix2 i j)
      = ∑ k : Fin K, lhs (ix2 k i) * rhs (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun x => Fin.ext (by
    match x with
    | ⟨0, _⟩ => exact (hl0 _ _).trans hk
    | ⟨1, _⟩ => exact hl1 _ _)
  have er : d.rhsIdx (ix2 i j) ((contrEquiv1 d K hr hs).symm k) = ix2 j k := funext fun x => Fin.ext (by
    match x with
    | ⟨0, _⟩ => exact hr0 _ _
    | ⟨1, _⟩ => exact (hr1 _ _).trans hk)
  rw [el, er]

/-- A product `[K, a] × [K, b] → [a, b]` into a zero accumulator at entry `(i, j)`: the dimension numbers contract the
    row axis of both operands, pairing the left entry `(q, y₀)` with the right entry `(q, y₁)`. -/
theorem matmul_KA_KB_zero {a K b : Nat} {φ₁ φ₂ : FTy}
    (d : DotDims ⟨2, ![K, a]⟩ ⟨2, ![K, b]⟩ ⟨2, ![a, b]⟩) (prec : Option ContractPrecision)
    (hr : d.contr.rank = 1) (hs : d.contr.size ⟨0, by omega⟩ = K)
    (hl0 : ∀ y q, (d.lhsIdx y q 0).val = (q ⟨0, by omega⟩).val)
    (hl1 : ∀ y q, (d.lhsIdx y q 1).val = (y 0).val)
    (hr0 : ∀ y q, (d.rhsIdx y q 0).val = (q ⟨0, by omega⟩).val)
    (hr1 : ∀ y q, (d.rhsIdx y q 1).val = (y 1).val)
    (lhs : FVec Ideal ⟨2, ![K, a]⟩ φ₁) (rhs : FVec Ideal ⟨2, ![K, b]⟩ φ₂) (i : Fin a) (j : Fin b) :
    FloatOps.matmul d prec lhs rhs (constant ⟨2, ![a, b]⟩ .f32 0x00000000#32) (ix2 i j)
      = ∑ k : Fin K, lhs (ix2 k i) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun x => Fin.ext (by
    match x with
    | ⟨0, _⟩ => exact (hl0 _ _).trans hk
    | ⟨1, _⟩ => exact hl1 _ _)
  have er : d.rhsIdx (ix2 i j) ((contrEquiv1 d K hr hs).symm k) = ix2 k j := funext fun x => Fin.ext (by
    match x with
    | ⟨0, _⟩ => exact (hr0 _ _).trans hk
    | ⟨1, _⟩ => exact hr1 _ _)
  rw [el, er]

/-- A product `[a, K] × [K, b] → [a, b]` into a zero accumulator at entry `(i, j)`: the plain product, the left entry
    `(y₀, q)` paired with the right entry `(q, y₁)`. -/
theorem matmul_AK_KB_zero {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ y q, (d.lhsIdx y q 0).val = (y 0).val)
    (hl1 : ∀ y q, (d.lhsIdx y q 1).val = (q ⟨0, by omega⟩).val)
    (hr0 : ∀ y q, (d.rhsIdx y q 0).val = (q ⟨0, by omega⟩).val)
    (hr1 : ∀ y q, (d.rhsIdx y q 1).val = (y 1).val)
    (lhs : FVec Ideal ⟨2, ![a, K]⟩ φ₁) (rhs : FVec Ideal ⟨2, ![K, b]⟩ φ₂) (i : Fin a) (j : Fin b) :
    FloatOps.matmul d prec lhs rhs (constant ⟨2, ![a, b]⟩ .f32 0x00000000#32) (ix2 i j)
      = ∑ k : Fin K, lhs (ix2 i k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun x => Fin.ext (by
    match x with
    | ⟨0, _⟩ => exact hl0 _ _
    | ⟨1, _⟩ => exact (hl1 _ _).trans hk)
  have er : d.rhsIdx (ix2 i j) ((contrEquiv1 d K hr hs).symm k) = ix2 k j := funext fun x => Fin.ext (by
    match x with
    | ⟨0, _⟩ => exact (hr0 _ _).trans hk
    | ⟨1, _⟩ => exact hr1 _ _)
  rw [el, er]

end Cert.LibMatmulK

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.Payload.lean ====
/-
  The kernel's arithmetic at an index.

  Each payload of the two kernel bodies, read at one coordinate tuple of its result, as a closed
  expression in the loaded values at coordinate tuples: shape casts and format changes are the
  identity on values, a transpose swaps the two coordinates, a lane reduction is a finite sum over
  the lane coordinate, and a matrix product into the zero accumulator is the finite sum over the
  contracted coordinate of the products of the operands' entries.
-/
import proofs.«125242_j49744311222303_2_alg».proof.Proof.Spec
import proofs.«125242_j49744311222303_2_alg».proof.Proof.Gen.KernelIdeal.Skeleton
import proofs.«125242_j49744311222303_2_alg».proof.Proof.LibMatmulT
import proofs.«125242_j49744311222303_2_alg».proof.Proof.LibMatmulK
import proofs.«125242_j49744311222303_2_alg».proof.Proof.LibColumn
import proofs.«125242_j49744311222303_2_alg».proof.Proof.LibRowSum
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## The four matrix products read at an entry

Each record contracts one axis; its operand coordinates at a result entry and a contraction
position are read off the record, and the product into the zero accumulator is then the finite sum
over the contracted extent. -/

/-! ### Token rows against centre rows: both operands contracted along their second axis. -/

theorem dotA_l0 (y : S1024x64.Idx) (q : dot_S1024x1024_S64x1024_S1024x64_1_1_0_0_n_n.contr.Idx) :
    (dot_S1024x1024_S64x1024_S1024x64_1_1_0_0_n_n.lhsIdx y q 0).val = (y 0).val := by
  unfold DotDims.lhsIdx
  rw [dif_neg (show ¬(0 : Fin S1024x1024.rank) ∈ dot_S1024x1024_S64x1024_S1024x64_1_1_0_0_n_n.lhsBatch by decide), dif_pos (show (0 : Fin S1024x1024.rank) ∈ dot_S1024x1024_S64x1024_S1024x64_1_1_0_0_n_n.lhsNonContracting by decide)]
  rfl
theorem dotA_l1 (y : S1024x64.Idx) (q : dot_S1024x1024_S64x1024_S1024x64_1_1_0_0_n_n.contr.Idx) :
    (dot_S1024x1024_S64x1024_S1024x64_1_1_0_0_n_n.lhsIdx y q 1).val = (q ⟨0, by decide⟩).val :=
  dot_S1024x1024_S64x1024_S1024x64_1_1_0_0_n_n.lhsIdx_val_of_single rfl y q
theorem dotA_r0 (y : S1024x64.Idx) (q : dot_S1024x1024_S64x1024_S1024x64_1_1_0_0_n_n.contr.Idx) :
    (dot_S1024x1024_S64x1024_S1024x64_1_1_0_0_n_n.rhsIdx y q 0).val = (y 1).val := by
  unfold DotDims.rhsIdx
  rw [dif_neg (show ¬(0 : Fin S64x1024.rank) ∈ dot_S1024x1024_S64x1024_S1024x64_1_1_0_0_n_n.rhsBatch by decide), dif_pos (show (0 : Fin S64x1024.rank) ∈ dot_S1024x1024_S64x1024_S1024x64_1_1_0_0_n_n.rhsNonContracting by decide)]
  rfl
theorem dotA_r1 (y : S1024x64.Idx) (q : dot_S1024x1024_S64x1024_S1024x64_1_1_0_0_n_n.contr.Idx) :
    (dot_S1024x1024_S64x1024_S1024x64_1_1_0_0_n_n.rhsIdx y q 1).val = (q ⟨0, by decide⟩).val :=
  dot_S1024x1024_S64x1024_S1024x64_1_1_0_0_n_n.rhsIdx_val_of_single rfl y q
theorem dotA_apply {φ₁ φ₂ : FTy} (a : FVec Ideal S1024x1024 φ₁) (b : FVec Ideal S64x1024 φ₂) (p : Fin 1024) (c : Fin 64) :
    matmul dot_S1024x1024_S64x1024_S1024x64_1_1_0_0_n_n none a b (constant (F := Ideal) S1024x64 .f32 0x00000000#32) (ix2 p c)
      = ∑ t : Fin 1024, a (ix2 p t) * b (ix2 c t) :=
  matmulT_zero_apply dot_S1024x1024_S64x1024_S1024x64_1_1_0_0_n_n none rfl rfl dotA_l0 dotA_l1 dotA_r0 dotA_r1 a b p c

/-! ### The plain product of two square matrices. -/

theorem dotB_l0 (y : S1024x1024.Idx) (q : dot_S1024x1024_S1024x1024_S1024x1024_1_0_0_1_n_n.contr.Idx) :
    (dot_S1024x1024_S1024x1024_S1024x1024_1_0_0_1_n_n.lhsIdx y q 0).val = (y 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dotB_l1 (y : S1024x1024.Idx) (q : dot_S1024x1024_S1024x1024_S1024x1024_1_0_0_1_n_n.contr.Idx) :
    (dot_S1024x1024_S1024x1024_S1024x1024_1_0_0_1_n_n.lhsIdx y q 1).val = (q ⟨0, by decide⟩).val :=
  dot_S1024x1024_S1024x1024_S1024x1024_1_0_0_1_n_n.lhsIdx_val_of_single rfl y q
theorem dotB_r0 (y : S1024x1024.Idx) (q : dot_S1024x1024_S1024x1024_S1024x1024_1_0_0_1_n_n.contr.Idx) :
    (dot_S1024x1024_S1024x1024_S1024x1024_1_0_0_1_n_n.rhsIdx y q 0).val = (q ⟨0, by decide⟩).val :=
  dot_S1024x1024_S1024x1024_S1024x1024_1_0_0_1_n_n.rhsIdx_val_of_single rfl y q
theorem dotB_r1 (y : S1024x1024.Idx) (q : dot_S1024x1024_S1024x1024_S1024x1024_1_0_0_1_n_n.contr.Idx) :
    (dot_S1024x1024_S1024x1024_S1024x1024_1_0_0_1_n_n.rhsIdx y q 1).val = (y 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
theorem dotB_apply {φ₁ φ₂ : FTy} (a : FVec Ideal S1024x1024 φ₁) (b : FVec Ideal S1024x1024 φ₂) (p : Fin 1024) (c : Fin 1024) :
    matmul dot_S1024x1024_S1024x1024_S1024x1024_1_0_0_1_n_n none a b (constant (F := Ideal) S1024x1024 .f32 0x00000000#32) (ix2 p c)
      = ∑ t : Fin 1024, a (ix2 p t) * b (ix2 t c) :=
  Cert.LibMatmulK.matmul_AK_KB_zero dot_S1024x1024_S1024x1024_S1024x1024_1_0_0_1_n_n none rfl rfl dotB_l0 dotB_l1 dotB_r0 dotB_r1 a b p c

/-! ### Both operands contracted along their first axis, over the 1024 token rows. -/

theorem dotC_l0 (y : S64x1024.Idx) (q : dot_S1024x64_S1024x1024_S64x1024_0_0_1_1_n_n.contr.Idx) :
    (dot_S1024x64_S1024x1024_S64x1024_0_0_1_1_n_n.lhsIdx y q 0).val = (q ⟨0, by decide⟩).val :=
  dot_S1024x64_S1024x1024_S64x1024_0_0_1_1_n_n.lhsIdx_val_of_single rfl y q
theorem dotC_l1 (y : S64x1024.Idx) (q : dot_S1024x64_S1024x1024_S64x1024_0_0_1_1_n_n.contr.Idx) :
    (dot_S1024x64_S1024x1024_S64x1024_0_0_1_1_n_n.lhsIdx y q 1).val = (y 0).val := by
  unfold DotDims.lhsIdx
  rw [dif_neg (show ¬(1 : Fin S1024x64.rank) ∈ dot_S1024x64_S1024x1024_S64x1024_0_0_1_1_n_n.lhsBatch by decide), dif_pos (show (1 : Fin S1024x64.rank) ∈ dot_S1024x64_S1024x1024_S64x1024_0_0_1_1_n_n.lhsNonContracting by decide)]
  rfl
theorem dotC_r0 (y : S64x1024.Idx) (q : dot_S1024x64_S1024x1024_S64x1024_0_0_1_1_n_n.contr.Idx) :
    (dot_S1024x64_S1024x1024_S64x1024_0_0_1_1_n_n.rhsIdx y q 0).val = (q ⟨0, by decide⟩).val :=
  dot_S1024x64_S1024x1024_S64x1024_0_0_1_1_n_n.rhsIdx_val_of_single rfl y q
theorem dotC_r1 (y : S64x1024.Idx) (q : dot_S1024x64_S1024x1024_S64x1024_0_0_1_1_n_n.contr.Idx) :
    (dot_S1024x64_S1024x1024_S64x1024_0_0_1_1_n_n.rhsIdx y q 1).val = (y 1).val := by
  unfold DotDims.rhsIdx
  rw [dif_neg (show ¬(1 : Fin S1024x1024.rank) ∈ dot_S1024x64_S1024x1024_S64x1024_0_0_1_1_n_n.rhsBatch by decide), dif_pos (show (1 : Fin S1024x1024.rank) ∈ dot_S1024x64_S1024x1024_S64x1024_0_0_1_1_n_n.rhsNonContracting by decide)]
  rfl
theorem dotC_apply {φ₁ φ₂ : FTy} (a : FVec Ideal S1024x64 φ₁) (b : FVec Ideal S1024x1024 φ₂) (p : Fin 64) (c : Fin 1024) :
    matmul dot_S1024x64_S1024x1024_S64x1024_0_0_1_1_n_n none a b (constant (F := Ideal) S64x1024 .f32 0x00000000#32) (ix2 p c)
      = ∑ t : Fin 1024, a (ix2 t p) * b (ix2 t c) :=
  Cert.LibMatmulK.matmul_KA_KB_zero dot_S1024x64_S1024x1024_S64x1024_0_0_1_1_n_n none rfl rfl dotC_l0 dotC_l1 dotC_r0 dotC_r1 a b p c

/-! ### Both operands contracted along their first axis, over the 64 centres. -/

theorem dotD_l0 (y : S1024x1024.Idx) (q : dot_S64x1024_S64x1024_S1024x1024_0_0_1_1_n_n.contr.Idx) :
    (dot_S64x1024_S64x1024_S1024x1024_0_0_1_1_n_n.lhsIdx y q 0).val = (q ⟨0, by decide⟩).val :=
  dot_S64x1024_S64x1024_S1024x1024_0_0_1_1_n_n.lhsIdx_val_of_single rfl y q
theorem dotD_l1 (y : S1024x1024.Idx) (q : dot_S64x1024_S64x1024_S1024x1024_0_0_1_1_n_n.contr.Idx) :
    (dot_S64x1024_S64x1024_S1024x1024_0_0_1_1_n_n.lhsIdx y q 1).val = (y 0).val := by
  unfold DotDims.lhsIdx
  rw [dif_neg (show ¬(1 : Fin S64x1024.rank) ∈ dot_S64x1024_S64x1024_S1024x1024_0_0_1_1_n_n.lhsBatch by decide), dif_pos (show (1 : Fin S64x1024.rank) ∈ dot_S64x1024_S64x1024_S1024x1024_0_0_1_1_n_n.lhsNonContracting by decide)]
  rfl
theorem dotD_r0 (y : S1024x1024.Idx) (q : dot_S64x1024_S64x1024_S1024x1024_0_0_1_1_n_n.contr.Idx) :
    (dot_S64x1024_S64x1024_S1024x1024_0_0_1_1_n_n.rhsIdx y q 0).val = (q ⟨0, by decide⟩).val :=
  dot_S64x1024_S64x1024_S1024x1024_0_0_1_1_n_n.rhsIdx_val_of_single rfl y q
theorem dotD_r1 (y : S1024x1024.Idx) (q : dot_S64x1024_S64x1024_S1024x1024_0_0_1_1_n_n.contr.Idx) :
    (dot_S64x1024_S64x1024_S1024x1024_0_0_1_1_n_n.rhsIdx y q 1).val = (y 1).val := by
  unfold DotDims.rhsIdx
  rw [dif_neg (show ¬(1 : Fin S64x1024.rank) ∈ dot_S64x1024_S64x1024_S1024x1024_0_0_1_1_n_n.rhsBatch by decide), dif_pos (show (1 : Fin S64x1024.rank) ∈ dot_S64x1024_S64x1024_S1024x1024_0_0_1_1_n_n.rhsNonContracting by decide)]
  rfl
theorem dotD_apply {φ₁ φ₂ : FTy} (a : FVec Ideal S64x1024 φ₁) (b : FVec Ideal S64x1024 φ₂) (p : Fin 1024) (c : Fin 1024) :
    matmul dot_S64x1024_S64x1024_S1024x1024_0_0_1_1_n_n none a b (constant (F := Ideal) S1024x1024 .f32 0x00000000#32) (ix2 p c)
      = ∑ t : Fin 64, a (ix2 t p) * b (ix2 t c) :=
  Cert.LibMatmulK.matmul_KA_KB_zero dot_S64x1024_S64x1024_S1024x1024_0_0_1_1_n_n none rfl rfl dotD_l0 dotD_l1 dotD_r0 dotD_r1 a b p c

/-! ## Casts, format changes, the zero block -/

/-- The exponential of a vector at an index, over the extended reals. -/
theorem exp_apply {s : Shape} {φ : FTy} (a : FVec Ideal s φ) (i : s.Idx) : exp a i = Ideal.exp (a i) := rfl

/-- The token block with its unit axis dropped. -/
theorem pay5_apply (x : Vec Ideal S1x1024x1024 .f32) (r d : Fin 1024) :
    k0_pay5 x (ix2 r d) = x (ix3 0 r d) := by
  unfold k0_pay5
  exact shapeCast_1ab_ab_apply x _ r d

/-- The token block in the narrow format: the same extended reals. -/
theorem pay6_apply (x : Vec Ideal S1x1024x1024 .f32) (r d : Fin 1024) :
    k0_pay6 x (ix2 r d) = x (ix3 0 r d) := by
  unfold k0_pay6
  exact (truncf_apply (φ := .f32) (ψ := .bf16) (k0_pay5 x) bitsLt_bf16_f32 (ix2 r d)).trans (pay5_apply x r d)

/-- A [64,1024] value stored as a [1,64,1024] block reads the same entry. -/
theorem pay3_apply (v : Vec Ideal S64x1024 .f32) (k : Fin 64) (e : Fin 1024) :
    k0_pay3 v (ix3 0 k e) = v (ix2 k e) := by
  unfold k0_pay3
  exact shapeCast_ab_1ab_apply v _ 0 k e

/-- The accumulator's initial block is the literal zero everywhere. -/
theorem pay4_apply (k : Fin 64) (e : Fin 1024) :
    (k0_pay4 (F := Ideal)) (ix2 k e) = Cert.Splat.zero := by
  unfold k0_pay4
  rw [shapeCast_self]
  rfl

/-- The affinities stored for the second kernel: transposed, in the narrow format, with a unit axis. -/
theorem pay18_apply (x : Vec Ideal S1x1024x1024 .f32) (cb : Vec Ideal S64x1024 .bf16) (cc sv : Vec Ideal S1x64 .f32)
    (k : Fin 64) (r : Fin 1024) :
    k0_pay1 (k0_pay8 x cb cc sv) (ix3 0 k r) = k0_pay7 x cb cc sv (ix2 r k) := by
  unfold k0_pay1 k0_pay8
  refine (shapeCast_ab_1ab_apply _ _ 0 k r).trans ?_
  refine (truncf_apply (φ := .f32) (ψ := .bf16) _ bitsLt_bf16_f32 (ix2 k r)).trans ?_
  exact transpose_ix2_apply _ _ k r

/-! ## The affinities of a token row -/

/-- The inner products of the token rows with the centres. -/
def xc (x : Vec Ideal S1x1024x1024 .f32) (cb : Vec Ideal S64x1024 .bf16) : FVec Ideal S1024x64 .f32 :=
  matmul dot_S1024x1024_S64x1024_S1024x64_1_1_0_0_n_n none (k0_pay6 x)
    (shapeCast S64x1024 cb shapeCasts_S64x1024_S64x1024 : FVec Ideal S64x1024 .bf16) (constant S1024x64 .f32 0x00000000#32)

theorem xc_apply (x : Vec Ideal S1x1024x1024 .f32) (cb : Vec Ideal S64x1024 .bf16) (r : Fin 1024) (k : Fin 64) :
    xc x cb (ix2 r k) = ∑ d : Fin 1024, x (ix3 0 r d) * cb (ix2 k d) := by
  unfold xc
  rw [dotA_apply, shapeCast_self]
  exact Finset.sum_congr rfl fun d _ => congrArg (· * cb (ix2 k d)) (pay6_apply x r d)

/-- The squared norms of the token rows. -/
def sq (x : Vec Ideal S1x1024x1024 .f32) : FVec Ideal S1024 .f32 :=
  multiReduction .add [1] S1024 (mulf (k0_pay5 x) (k0_pay5 x)) 0x00000000#32 reduces_S1024x1024_S1024 (.inl rfl) rfl

theorem sq_apply (x : Vec Ideal S1x1024x1024 .f32) (r : Fin 1024) :
    sq x (ix1 r) = ∑ d : Fin 1024, x (ix3 0 r d) * x (ix3 0 r d) := by
  unfold sq
  refine (Cert.LibRowSum.multiReduction_add_row _ _ _ _ _ r).trans ?_
  exact Finset.sum_congr rfl fun d _ => by rw [mulf_apply, pay5_apply]

/-- The unnormalised affinities exp(−½·max(|x|² − 2⟨x,C⟩ + c2, 0)/s²) as the kernel computes them. -/
def ev (x : Vec Ideal S1x1024x1024 .f32) (cb : Vec Ideal S64x1024 .bf16) (cc sv : Vec Ideal S1x64 .f32) :
    FVec Ideal S1024x64 .f32 :=
  exp (divf
    (mulf (broadcast S1024x64 (Scalar.ofBits (F := Ideal) .f32 0xBF000000#32))
      (maximumf
        (addf
          (subf (broadcastTo S1024x64 (shapeCast S1024x1 (sq x) shapeCasts_S1024_S1024x1) broadcasts_S1024x1_S1024x64)
            (mulf (broadcast S1024x64 (Scalar.ofBits (F := Ideal) .f32 0x40000000#32)) (xc x cb)))
          (broadcastTo S1024x64 (shapeCast S1x64 cc shapeCasts_S1x64_S1x64) broadcasts_S1x64_S1024x64))
        (broadcast S1024x64 (Scalar.ofBits (F := Ideal) .f32 0x00000000#32))))
    (broadcastTo S1024x64
      (mulf (shapeCast S1x64 sv shapeCasts_S1x64_S1x64) (shapeCast S1x64 sv shapeCasts_S1x64_S1x64))
      broadcasts_S1x64_S1024x64))

/-- The first payload of the affinities is the quotient of the exponentials by their lane sums plus ε. -/
theorem pay7_eq (x : Vec Ideal S1x1024x1024 .f32) (cb : Vec Ideal S64x1024 .bf16) (cc sv : Vec Ideal S1x64 .f32) :
    k0_pay7 x cb cc sv = divf (ev x cb cc sv)
      (broadcastTo S1024x64
        (addf
          (shapeCast S1024x1
            (multiReduction .add [1] S1024 (ev x cb cc sv) 0x00000000#32 reduces_S1024x64_S1024 (.inl rfl) rfl)
            shapeCasts_S1024_S1024x1)
          (broadcast S1024x1 (Scalar.ofBits (F := Ideal) .f32 0x322BCC77#32)))
        broadcasts_S1024x1_S1024x64) := rfl

/-- The exponential at (r, k) is the specification's unnormalised affinity of row r to centre k. -/
theorem ev_apply (x : Vec Ideal S1x1024x1024 .f32) (cb : Vec Ideal S64x1024 .bf16) (cc sv : Vec Ideal S1x64 .f32)
    (r : Fin 1024) (k : Fin 64) :
    ev x cb cc sv (ix2 r k)
      = Cert.Splat.erow (fun d => x (ix3 0 r d)) cb (fun k => cc (ix2 0 k)) (fun k => sv (ix2 0 k)) k := by
  unfold ev Cert.Splat.erow
  simp only [exp_apply, divf_apply, mulf_apply, maximumf_apply, addf_apply, subf_apply, broadcast_apply,
    broadcastTo_a1_ab_apply, broadcastTo_1b_ab_apply, shapeCast_a_a1_apply, shapeCast_self, sq_apply, xc_apply]
  rfl

/-- The normalised affinity at (r, k). -/
theorem pay7_apply (x : Vec Ideal S1x1024x1024 .f32) (cb : Vec Ideal S64x1024 .bf16) (cc sv : Vec Ideal S1x64 .f32)
    (r : Fin 1024) (k : Fin 64) :
    k0_pay7 x cb cc sv (ix2 r k)
      = Cert.Splat.affRow (fun d => x (ix3 0 r d)) cb (fun k => cc (ix2 0 k)) (fun k => sv (ix2 0 k)) k := by
  have hsum : (multiReduction .add [1] S1024 (ev x cb cc sv) 0x00000000#32 reduces_S1024x64_S1024 (.inl rfl) rfl :
        FVec Ideal S1024 .f32) (ix1 r)
      = ∑ k' : Fin 64, Cert.Splat.erow (fun d => x (ix3 0 r d)) cb (fun k => cc (ix2 0 k)) (fun k => sv (ix2 0 k)) k' :=
    (Cert.LibRowSum.multiReduction_add_row _ _ _ _ _ r).trans
      (Finset.sum_congr rfl fun k' _ => ev_apply x cb cc sv r k')
  rw [pay7_eq, divf_apply, ev_apply, broadcastTo_a1_ab_apply, addf_apply, shapeCast_a_a1_apply, hsum, broadcast_apply]
  rfl

/-! ## The accumulated splat block -/

/-- One grid step adds, to the accumulator at (k, e), the sum over the block's token rows of the
    affinity to centre k times the value row's entry e. -/
theorem pay2_apply (v11 : FVec Ideal S1024x1024 .bf16) (v35 : FVec Ideal S1024x64 .f32) (v41 : Vec Ideal S1024x1024 .bf16)
    (v46 : Vec Ideal S64x1024 .f32) (k : Fin 64) (e : Fin 1024) :
    k0_pay2 v11 v35 v41 v46 (ix2 k e)
      = v46 (ix2 k e) + ∑ r : Fin 1024, v35 (ix2 r k) * (∑ d : Fin 1024, v11 (ix2 r d) * v41 (ix2 d e)) := by
  simp only [k0_pay2, shapeCast_self, addf_apply, dotC_apply, truncf_apply, dotB_apply]

/-! ## The second kernel -/

/-- Row r of the token output: the affinities against the splat block, then against the output weights. -/
theorem k1pay_apply (a : Vec Ideal S1x64x1024 .bf16) (sp : Vec Ideal S1x64x1024 .f32) (wo : Vec Ideal S1024x1024 .bf16)
    (r f : Fin 1024) :
    k1_pay1 a sp wo (ix3 0 r f)
      = ∑ e : Fin 1024, (∑ k : Fin 64, a (ix3 0 k r) * sp (ix3 0 k e)) * wo (ix2 e f) := by
  simp only [k1_pay1, shapeCast_ab_1ab_apply, dotB_apply, truncf_apply, dotD_apply, shapeCast_1ab_ab_apply, shapeCast_self]

end Cert.KernelIdeal.Pay

end
-- ==== Proof.LibBlocks.lean ====
/-
  A sum over a range cut into equal blocks: the sum over `a · b` consecutive indices is the sum, block by block,
  of the sums over each block's `b` indices — index `t · b + p` being entry `p` of block `t`.
-/
import Mathlib.Algebra.BigOperators.Fin
import Mathlib.Logic.Equiv.Fin.Basic

namespace Cert.LibBlocks

open Finset

/-- The position of entry `p` of block `t` among `a` blocks of `b` entries. -/
theorem pos_lt {a b : ℕ} (t : Fin a) (p : Fin b) : t.val * b + p.val < a * b := by
  have ht := t.isLt
  have hp := p.isLt
  calc t.val * b + p.val < t.val * b + b := by omega
    _ = (t.val + 1) * b := (Nat.succ_mul t.val b).symm
    _ ≤ a * b := Nat.mul_le_mul_right b (by omega)

/-- A sum over `a · b` indices is the iterated sum over `a` blocks of `b` indices each. -/
theorem sum_blocks {M : Type*} [AddCommMonoid M] {a b : ℕ} (f : Fin (a * b) → M) :
    ∑ r : Fin (a * b), f r = ∑ t : Fin a, ∑ p : Fin b, f ⟨t.val * b + p.val, pos_lt t p⟩ := by
  rw [← Finset.sum_product', Finset.univ_product_univ]
  refine (Equiv.sum_comp (finProdFinEquiv (m := a) (n := b)) f).symm.trans ?_
  refine Finset.sum_congr rfl fun x _ => ?_
  refine congrArg f (Fin.ext ?_)
  show x.2.val + b * x.1.val = x.1.val * b + x.2.val
  rw [Nat.mul_comm]; omega

/-- The same at a literal total: a sum over `n` indices with `n = a · b`. -/
theorem sum_blocks_of_eq {M : Type*} [AddCommMonoid M] {n a b : ℕ} (h : n = a * b) (f : Fin n → M) :
    ∑ r : Fin n, f r = ∑ t : Fin a, ∑ p : Fin b, f ⟨t.val * b + p.val, h ▸ pos_lt t p⟩ := by
  subst h
  exact sum_blocks f

end Cert.LibBlocks
-- ==== Proof.AccSum.lean ====
/-
  The splat states accumulated tile by tile: a batch's 4096 token rows are four tiles of 1024 rows; the partial sum after
  tile n is the zero literal plus the contributions of tiles 0..n, each step adds one tile's contribution, and after the
  fourth tile the partial sum is the whole sum over the batch's rows. Only commutativity and associativity of + are used.
-/
import proofs.«125242_j49744311222303_2_alg».proof.Proof.Spec
import proofs.«125242_j49744311222303_2_alg».proof.Proof.LibBlocks
import Idealize.ShloMosaic.PureOps.Ideal.Laws

noncomputable section

namespace Cert.Splat

open Idealize.ShloMosaic Idealize.ShloMosaic.ValueIdx

/-- Row r of tile j (tiles counted modulo 4) among a batch's 4096 rows. -/
def row (j : ℕ) (r : Fin 1024) : Fin 4096 :=
  ⟨(j % 4) * 1024 + r.val, by have := r.isLt; have := Nat.mod_lt j (show 4 > 0 by norm_num); omega⟩

theorem row_val (j : ℕ) (r : Fin 1024) : (row j r).val = (j % 4) * 1024 + r.val := rfl

/-- A sum over the 4096 rows is the sum over the four tiles of the sums over each tile's rows. -/
theorem sum_rows {M : Type*} [AddCommMonoid M] (f : Fin 4096 → M) :
    ∑ j ∈ Finset.range 4, ∑ r : Fin 1024, f (row j r) = ∑ s : Fin 4096, f s := by
  rw [Cert.LibBlocks.sum_blocks_of_eq (show 4096 = 4 * 1024 by norm_num) f, Finset.sum_range]
  refine Finset.sum_congr rfl fun t _ => Finset.sum_congr rfl fun p _ => congrArg f (Fin.ext ?_)
  show (t.val % 4) * 1024 + p.val = t.val * 1024 + p.val
  rw [Nat.mod_eq_of_lt t.isLt]

variable (X : SX.Idx → EReal) (C : SC.Idx → EReal) (LS : SL.Idx → EReal) (Wv : SW.Idx → EReal)

/-- Tile j's contribution to splat state (b, k, e). -/
def tile (b : Fin 4) (j : ℕ) (k : Fin 64) (e : Fin 1024) : EReal :=
  ∑ r : Fin 1024, aff X C LS b (row j r) k * val X Wv b (row j r) e

/-- The partial sum after tile n. -/
def part (b : Fin 4) (n : ℕ) (k : Fin 64) (e : Fin 1024) : EReal :=
  zero + ∑ j ∈ Finset.range (n + 1), tile X C LS Wv b j k e

theorem part_zero (b : Fin 4) (k : Fin 64) (e : Fin 1024) : part X C LS Wv b 0 k e = zero + tile X C LS Wv b 0 k e := by
  unfold part; rw [Finset.sum_range_one]

theorem part_succ (b : Fin 4) (n : ℕ) (k : Fin 64) (e : Fin 1024) :
    part X C LS Wv b (n + 1) k e = part X C LS Wv b n k e + tile X C LS Wv b (n + 1) k e := by
  unfold part; rw [Finset.sum_range_succ _ (n + 1), add_assoc]

theorem part_three (b : Fin 4) (k : Fin 64) (e : Fin 1024) : part X C LS Wv b 3 k e = splat X C LS Wv b k e := by
  unfold part splat tile
  rw [sum_rows (fun s => aff X C LS b s k * val X Wv b s e)]
  show Ideal.ofBits .f32 0x00000000#32 + _ = _
  rw [Ideal.ofBits_zero_f32, zero_add]

end Cert.Splat

end
-- ==== Proof.Value0a.lean ====
/-
  One tile of the first kernel at the extended reals: given that the tile's input blocks are rows of the argument
  arrays (token rows row j r of batch b; the centres, their squared norms, the scales; the value projection transposed),
  the transposed-affinity block is the affinities of those rows, and the accumulator after the tile is what it held
  plus the tile's contribution to the splat states.
-/
import proofs.«125242_j49744311222303_2_alg».proof.Proof.IPieces
import proofs.«125242_j49744311222303_2_alg».proof.Proof.Payload
import proofs.«125242_j49744311222303_2_alg».proof.Proof.AccSum

noncomputable section

namespace Cert.KernelIdeal.Hand

open Cert.KernelIdeal Cert.KernelIdeal.Gen Cert.KernelIdeal.Pay
open Idealize.ShloMosaic Idealize.ShloMosaic.ValueIdx
open Cert.Splat (SX SC SL SW aff val splat tok tile part row scale c2 affRow)

variable (X : SX.Idx → EReal) (C : SC.Idx → EReal) (LS : SL.Idx → EReal) (Wv : SW.Idx → EReal)
variable (b : Fin 4) (j : ℕ)
variable (x0 : Vec Ideal S1x1024x1024 .f32) (x1 : Vec Ideal S64x1024 .bf16) (x2 x3 : Vec Ideal S1x64 .f32) (x4 : Vec Ideal S1024x1024 .bf16)

/-- The affinity of the tile's row r to centre k, from the blocks. -/
theorem pay7_aff (h0 : ∀ r d, x0 (ix3 0 r d) = X (ix3 b (row j r) d)) (h1 : ∀ k d, x1 (ix2 k d) = C (ix2 k d))
    (h2 : ∀ k, x2 (ix2 0 k) = c2 C k) (h3 : ∀ k, x3 (ix2 0 k) = scale LS k) (r : Fin 1024) (k : Fin 64) :
    k0_pay7 x0 x1 x2 x3 (ix2 r k) = aff X C LS b (row j r) k := by
  rw [pay7_apply]
  have e0 : (fun d => x0 (ix3 0 r d)) = fun d => X (ix3 b (row j r) d) := funext (h0 r)
  have e1 : (x1 : SC.Idx → EReal) = C := funext fun i => by rw [eq_ix2 i]; exact h1 _ _
  have e2 : (fun k => x2 (ix2 0 k)) = c2 C := funext h2
  have e3 : (fun k => x3 (ix2 0 k)) = scale LS := funext h3
  unfold aff
  rw [e0, e2, e3]
  exact congrArg (fun (z : SC.Idx → EReal) => affRow (fun d => X (ix3 b (row j r) d)) z (c2 C) (scale LS) k) e1

/-- The transposed-affinity block of the tile. -/
theorem affT_apply (h0 : ∀ r d, x0 (ix3 0 r d) = X (ix3 b (row j r) d)) (h1 : ∀ k d, x1 (ix2 k d) = C (ix2 k d))
    (h2 : ∀ k, x2 (ix2 0 k) = c2 C k) (h3 : ∀ k, x3 (ix2 0 k) = scale LS k) (k : Fin 64) (r : Fin 1024) :
    affTOf x0 x1 x2 x3 (ix3 0 k r) = aff X C LS b (row j r) k := by
  unfold affTOf
  rw [pay18_apply]
  exact pay7_aff X C LS b j x0 x1 x2 x3 h0 h1 h2 h3 r k

/-- The accumulator after the tile: what it held plus the tile's contribution. -/
theorem acc_apply (h0 : ∀ r d, x0 (ix3 0 r d) = X (ix3 b (row j r) d)) (h1 : ∀ k d, x1 (ix2 k d) = C (ix2 k d))
    (h2 : ∀ k, x2 (ix2 0 k) = c2 C k) (h3 : ∀ k, x3 (ix2 0 k) = scale LS k) (h4 : ∀ d e, x4 (ix2 d e) = Wv (ix2 e d))
    (a : Vec Ideal S64x1024 .f32) (k : Fin 64) (e : Fin 1024) :
    accOf x0 x1 x2 x3 x4 a (ix2 k e) = a (ix2 k e) + tile X C LS Wv b j k e := by
  unfold accOf
  rw [pay2_apply]
  refine congrArg (a (ix2 k e) + ·) ?_
  unfold tile
  refine Finset.sum_congr rfl fun r _ => ?_
  rw [pay7_aff X C LS b j x0 x1 x2 x3 h0 h1 h2 h3 r k]
  refine congrArg (aff X C LS b (row j r) k * ·) ?_
  unfold val
  refine Finset.sum_congr rfl fun d _ => ?_
  rw [pay6_apply, h0, h4]

end Cert.KernelIdeal.Hand

end
-- ==== Proof.HostPrefix.lean ====
/-
  The kernel program's host prefix read at an index.

  Before the first kernel region the host computes, from the argument arrays: the clipped scales exp(log-scale)
  held in [0.1, 2] as a [1, 64] row, the squared centre norms as a [1, 64] row, the centres in the narrower float
  format, and the two weight matrices transposed. On the extended reals a change of float format is the identity,
  so each of these arrays is, entry by entry, the specification's quantity of the same name.
-/
import proofs.«125242_j49744311222303_2_alg».proof.Proof.Spec
import proofs.«125242_j49744311222303_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pre

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ) (c : Dev nD)

set_option quotPrecheck false in
local notation "A0" => (m ((c.tc : Thread nD τ).loc main_arg0) : (⟨S4x4096x1024, .f32⟩ : BufTy).Contents (Elt Ideal))
set_option quotPrecheck false in
local notation "A1" => (m ((c.tc : Thread nD τ).loc main_arg1) : (⟨S64x1024, .f32⟩ : BufTy).Contents (Elt Ideal))
set_option quotPrecheck false in
local notation "A2" => (m ((c.tc : Thread nD τ).loc main_arg2) : (⟨S64, .f32⟩ : BufTy).Contents (Elt Ideal))
set_option quotPrecheck false in
local notation "A3" => (m ((c.tc : Thread nD τ).loc main_arg3) : (⟨S1024x1024, .f32⟩ : BufTy).Contents (Elt Ideal))
set_option quotPrecheck false in
local notation "A4" => (m ((c.tc : Thread nD τ).loc main_arg4) : (⟨S1024x1024, .f32⟩ : BufTy).Contents (Elt Ideal))

/-- No host operation writes the token array. -/
theorem arg0_eq : V3 m c main_arg0 = m ((c.tc : Thread nD τ).loc main_arg0) :=
  (V3_of m c main_arg0 (by decide)).trans <| (V2_of m c main_arg0 (by decide)).trans <| (V1_of m c main_arg0 (by decide)).trans rfl

/-! ## The centres in the narrower float format -/

theorem v6_term : (V3 m c main_v6 : S64x1024.Idx → EReal) = (A1 : S64x1024.Idx → EReal) := by
  dsimp only [V3, V2, V1, V0, hostOps0, hostOps0_1, hostOps0_2]
  after_results
  rfl

/-- The centres: a change of float format changes no extended real. -/
theorem v6_apply (k : Fin 64) (d : Fin 1024) :
    (V3 m c main_v6 : S64x1024.Idx → EReal) (ix2 k d) = (A1 : S64x1024.Idx → EReal) (ix2 k d) := by
  rw [v6_term]

/-! ## The squared centre norms -/

/-- The host's sum over a matrix's second axis, from an initial value. -/
theorem rowsum_apply (y : FVec Ideal S64x1024 .f32) (z : FVec Ideal S_ .f32) (k : Fin 64) :
    Host.reduceAdd (F := Ideal) (φ := .f32) y z reducesTo_S64x1024_S64_d1 h_S_ (ix1 k)
      = z (Shape.Idx.first h_S_) + ∑ d : Fin 1024, y (ix2 k d) := by
  simp only [Host.reduceAdd, Ideal.hostReduceAdd_def]
  rw [Ideal.hostReduceAdd_single reducesTo_S64x1024_S64_d1 (by decide)]
  refine congrArg (_ + ·) (Finset.sum_congr rfl fun d _ => ?_)
  exact congrArg y (funext fun a => Fin.ext (by match a with | ⟨0, _⟩ => rfl | ⟨1, _⟩ => rfl))

theorem v5_term : (V3 m c main_v5 : S1x64.Idx → EReal)
    = shapeCast S1x64 (Host.reduceAdd (F := Ideal) (φ := .f32) (mulf (F := Ideal) (φ := .f32) A1 A1) (constant (F := Ideal) S_ .f32 0x00000000#32)
        reducesTo_S64x1024_S64_d1 h_S_) shapeCasts_S64_S1x64 := by
  dsimp only [V3, V2, V1, V0, hostOps0, hostOps0_1, hostOps0_2]
  after_results
  rfl

/-- The squared centre norms, as a row. -/
theorem v5_apply (k : Fin 64) : (V3 m c main_v5 : S1x64.Idx → EReal) (ix2 0 k) = Cert.Splat.c2 A1 k := by
  rw [v5_term, shapeCast_a_1a_apply, rowsum_apply]
  rfl

/-! ## The clipped scales -/

/-- A scalar broadcast along a vector reads the scalar. -/
theorem bcast_apply (y : (⟨S_, .f32⟩ : BufTy).Contents (Elt Ideal)) (i : S64.Idx) :
    broadcastInDim S64 ![] bcast_S_S64 y i = y ix0 :=
  broadcastInDim_apply _ bcast_S_S64 y i ix0 (fun a => a.elim0)

theorem v2_term : (V3 m c main_v2 : S1x64.Idx → EReal)
    = shapeCast S1x64
        (minimumf (F := Ideal) (φ := .f32) (broadcastInDim S64 ![] bcast_S_S64 (id (constant (F := Ideal) S_ .f32 0x40000000#32)))
          (maximumf (F := Ideal) (φ := .f32) (broadcastInDim S64 ![] bcast_S_S64 (id (constant (F := Ideal) S_ .f32 0x3DCCCCCD#32)))
            (Host.exp (F := Ideal) (φ := .f32) A2)))
        shapeCasts_S64_S1x64 := by
  dsimp only [V3, V2, V1, V0, hostOps0, hostOps0_1, hostOps0_2]
  after_results
  rfl

/-- The clipped scales, as a row. -/
theorem v2_apply (k : Fin 64) : (V3 m c main_v2 : S1x64.Idx → EReal) (ix2 0 k) = Cert.Splat.scale A2 k := by
  rw [v2_term, shapeCast_a_1a_apply, minimumf_apply, maximumf_apply, bcast_apply, bcast_apply]
  rfl

/-! ## The weight matrices transposed -/

theorem v8_term : (V3 m c main_v8 : S1024x1024.Idx → EReal)
    = (transpose S1024x1024 [1, 0] A3 transposes_S1024x1024_S1024x1024_1_0 : S1024x1024.Idx → EReal) := by
  dsimp only [V3, V2, V1, V0, hostOps0, hostOps0_1, hostOps0_2]
  after_results
  rfl

/-- The value weights, transposed. -/
theorem v8_apply (d e : Fin 1024) :
    (V3 m c main_v8 : S1024x1024.Idx → EReal) (ix2 d e) = (A3 : S1024x1024.Idx → EReal) (ix2 e d) := by
  rw [v8_term]
  exact transpose_ix2_apply _ _ d e

theorem v10_term : (V3 m c main_v10 : S1024x1024.Idx → EReal)
    = (transpose S1024x1024 [1, 0] A4 transposes_S1024x1024_S1024x1024_1_0 : S1024x1024.Idx → EReal) := by
  dsimp only [V3, V2, V1, V0, hostOps0, hostOps0_1, hostOps0_2]
  after_results
  rfl

/-- The output weights, transposed. -/
theorem v10_apply (e f : Fin 1024) :
    (V3 m c main_v10 : S1024x1024.Idx → EReal) (ix2 e f) = (A4 : S1024x1024.Idx → EReal) (ix2 f e) := by
  rw [v10_term]
  exact transpose_ix2_apply _ _ e f

end Cert.KernelIdeal.Pre

end
-- ==== Proof.Blocks.lean ====
/-
  The windows' blocks read at an index.

  A window's block at grid point t is the rectangle of its array whose offset on each axis is the
  window's block index there times the block's extent. With the block indices decided once over the
  sixteen grid points (batch t / 4, row tile t % 4), an entry of a block is an entry of the array at
  explicit coordinates; a window whose block index is constantly zero and whose block is the whole
  array reads the array itself; and every entry of an output array lies in the block of a grid point
  at which that block is written back.
-/
import proofs.«125242_j49744311222303_2_alg».proof.Proof.IFrame0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The first pipeline (grid 4 × 4: point t is batch t / 4, row tile t % 4) -/

/-! ### Pipeline 0, window 0: block [1, 1024, 1024] of the [4, 4096, 1024] array, block index (t.val / 4, t.val % 4, 0) -/

theorem idx0_0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

theorem read0_0 (G : S4x4096x1024.Idx → Elt F .f32) (t : Fin cfg0.N) (b : Fin 4) (s : Fin 4096) (r : Fin 1024) (d : Fin 1024)
    (hb : b.val = t.val / 4) (hs : s.val = (t.val % 4) * 1024 + r.val) :
    ((cfg0.win 0).blk t).view.read (Elt F) G (ix3 0 r d) = G (ix3 b s d) := by
  obtain ⟨e0, e1, e2⟩ := idx0_0 t
  rw [View.read_apply]
  show G _ = G _
  congr 1
  funext a
  apply Fin.ext
  match a with
  | ⟨0, _⟩ => show win0_0.index t (0 : Fin 3) * 1 + 1 * 0 = b.val; rw [e0]; omega
  | ⟨1, _⟩ => show win0_0.index t (1 : Fin 3) * 1024 + 1 * r.val = s.val; rw [e1]; omega
  | ⟨2, _⟩ => show win0_0.index t (2 : Fin 3) * 1024 + 1 * d.val = d.val; rw [e2]; omega

theorem iblk0_0_apply (c : Dev nD) (t : Fin cfg0.N) (b : Fin 4) (s : Fin 4096) (r : Fin 1024) (d : Fin 1024)
    (hb : b.val = t.val / 4) (hs : s.val = (t.val % 4) * 1024 + r.val) :
    (iblk0 V c 0 t : Vec F S1x1024x1024 .f32) (ix3 0 r d) = (V c main_arg0 : S4x4096x1024.Idx → Elt F .f32) (ix3 b s d) :=
  read0_0 (V c main_arg0) t b s r d hb hs

/-! ### Pipeline 0, window 1: the whole array at every point -/

theorem idx0_1 : ∀ t : Fin cfg0.N, win0_1.index t (0 : Fin 2) = 0 ∧ win0_1.index t (1 : Fin 2) = 0 :=
  (by decide +kernel : ∀ t : Fin grid0.N, _)

theorem read0_1 (G : S64x1024.Idx → Elt F .bf16) (t : Fin cfg0.N) (x : S64x1024.Idx) :
    ((cfg0.win 1).blk t).view.read (Elt F) G x = G x := by
  obtain ⟨e0, e1⟩ := idx0_1 t
  rw [View.read_apply]
  show G _ = G _
  congr 1
  funext a
  apply Fin.ext
  match a with
  | ⟨0, _⟩ => show win0_1.index t (0 : Fin 2) * 64 + 1 * (x 0).val = (x 0).val; rw [e0]; omega
  | ⟨1, _⟩ => show win0_1.index t (1 : Fin 2) * 1024 + 1 * (x 1).val = (x 1).val; rw [e1]; omega

theorem iblk0_1_apply (c : Dev nD) (t : Fin cfg0.N) (x : S64x1024.Idx) :
    (iblk0 V c 1 t : Vec F S64x1024 .bf16) x = (V c main_v6 : S64x1024.Idx → Elt F .bf16) x :=
  read0_1 (V c main_v6) t x

theorem iblk0_1_eq (c : Dev nD) (t : Fin cfg0.N) :
    (iblk0 V c 1 t : Vec F S64x1024 .bf16) = (V c main_v6 : S64x1024.Idx → Elt F .bf16) :=
  funext fun x => iblk0_1_apply V c t x

/-! ### Pipeline 0, window 2: the whole array at every point -/

theorem idx0_2 : ∀ t : Fin cfg0.N, win0_2.index t (0 : Fin 2) = 0 ∧ win0_2.index t (1 : Fin 2) = 0 :=
  (by decide +kernel : ∀ t : Fin grid0.N, _)

theorem read0_2 (G : S1x64.Idx → Elt F .f32) (t : Fin cfg0.N) (x : S1x64.Idx) :
    ((cfg0.win 2).blk t).view.read (Elt F) G x = G x := by
  obtain ⟨e0, e1⟩ := idx0_2 t
  rw [View.read_apply]
  show G _ = G _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

theorem iblk0_2_apply (c : Dev nD) (t : Fin cfg0.N) (x : S1x64.Idx) :
    (iblk0 V c 2 t : Vec F S1x64 .f32) x = (V c main_v5 : S1x64.Idx → Elt F .f32) x :=
  read0_2 (V c main_v5) t x

theorem iblk0_2_eq (c : Dev nD) (t : Fin cfg0.N) :
    (iblk0 V c 2 t : Vec F S1x64 .f32) = (V c main_v5 : S1x64.Idx → Elt F .f32) :=
  funext fun x => iblk0_2_apply V c t x

/-! ### Pipeline 0, window 3: the whole array at every point -/

theorem idx0_3 : ∀ t : Fin cfg0.N, win0_3.index t (0 : Fin 2) = 0 ∧ win0_3.index t (1 : Fin 2) = 0 :=
  (by decide +kernel : ∀ t : Fin grid0.N, _)

theorem read0_3 (G : S1x64.Idx → Elt F .f32) (t : Fin cfg0.N) (x : S1x64.Idx) :
    ((cfg0.win 3).blk t).view.read (Elt F) G x = G x := by
  obtain ⟨e0, e1⟩ := idx0_3 t
  rw [View.read_apply]
  show G _ = G _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

theorem iblk0_3_apply (c : Dev nD) (t : Fin cfg0.N) (x : S1x64.Idx) :
    (iblk0 V c 3 t : Vec F S1x64 .f32) x = (V c main_v2 : S1x64.Idx → Elt F .f32) x :=
  read0_3 (V c main_v2) t x

theorem iblk0_3_eq (c : Dev nD) (t : Fin cfg0.N) :
    (iblk0 V c 3 t : Vec F S1x64 .f32) = (V c main_v2 : S1x64.Idx → Elt F .f32) :=
  funext fun x => iblk0_3_apply V c t x

/-! ### Pipeline 0, window 4: the whole array at every point -/

theorem idx0_4 : ∀ t : Fin cfg0.N, win0_4.index t (0 : Fin 2) = 0 ∧ win0_4.index t (1 : Fin 2) = 0 :=
  (by decide +kernel : ∀ t : Fin grid0.N, _)

theorem read0_4 (G : S1024x1024.Idx → Elt F .bf16) (t : Fin cfg0.N) (x : S1024x1024.Idx) :
    ((cfg0.win 4).blk t).view.read (Elt F) G x = G x := by
  obtain ⟨e0, e1⟩ := idx0_4 t
  rw [View.read_apply]
  show G _ = G _
  congr 1
  funext a
  apply Fin.ext
  match a with
  | ⟨0, _⟩ => show win0_4.index t (0 : Fin 2) * 1024 + 1 * (x 0).val = (x 0).val; rw [e0]; omega
  | ⟨1, _⟩ => show win0_4.index t (1 : Fin 2) * 1024 + 1 * (x 1).val = (x 1).val; rw [e1]; omega

theorem iblk0_4_apply (c : Dev nD) (t : Fin cfg0.N) (x : S1024x1024.Idx) :
    (iblk0 V c 4 t : Vec F S1024x1024 .bf16) x = (V c main_v8 : S1024x1024.Idx → Elt F .bf16) x :=
  read0_4 (V c main_v8) t x

theorem iblk0_4_eq (c : Dev nD) (t : Fin cfg0.N) :
    (iblk0 V c 4 t : Vec F S1024x1024 .bf16) = (V c main_v8 : S1024x1024.Idx → Elt F .bf16) :=
  funext fun x => iblk0_4_apply V c t x

/-! ### Pipeline 0, window 5: block [1, 64, 1024] of the [4, 64, 4096] array, block index (t.val / 4, 0, t.val % 4) -/

theorem idx0_5 : ∀ t : Fin cfg0.N, win0_5.index t (0 : Fin 3) = t.val / 4 ∧ win0_5.index t (1 : Fin 3) = 0
    ∧ win0_5.index t (2 : Fin 3) = t.val % 4 :=
  (by decide +kernel : ∀ t : Fin grid0.N, _)

theorem read0_5 (G : S4x64x4096.Idx → Elt F .bf16) (t : Fin cfg0.N) (b : Fin 4) (s : Fin 4096) (k : Fin 64) (r : Fin 1024)
    (hb : b.val = t.val / 4) (hs : s.val = (t.val % 4) * 1024 + r.val) :
    ((cfg0.win 5).blk t).view.read (Elt F) G (ix3 0 k r) = G (ix3 b k s) := by
  obtain ⟨e0, e1, e2⟩ := idx0_5 t
  rw [View.read_apply]
  show G _ = G _
  congr 1
  funext a
  apply Fin.ext
  match a with
  | ⟨0, _⟩ => show win0_5.index t (0 : Fin 3) * 1 + 1 * 0 = b.val; rw [e0]; omega
  | ⟨1, _⟩ => show win0_5.index t (1 : Fin 3) * 64 + 1 * k.val = k.val; rw [e1]; omega
  | ⟨2, _⟩ => show win0_5.index t (2 : Fin 3) * 1024 + 1 * r.val = s.val; rw [e2]; omega

theorem iblk0_5_apply (c : Dev nD) (t : Fin cfg0.N) (b : Fin 4) (s : Fin 4096) (k : Fin 64) (r : Fin 1024)
    (hb : b.val = t.val / 4) (hs : s.val = (t.val % 4) * 1024 + r.val) :
    (iblk0 V c 5 t : Vec F S1x64x1024 .bf16) (ix3 0 k r) = (V c main_v11_0 : S4x64x4096.Idx → Elt F .bf16) (ix3 b k s) :=
  read0_5 (V c main_v11_0) t b s k r hb hs

/-- An entry of the array is in point t's block iff each coordinate is in the block's range on its axis. -/
theorem mem_blk0_5 (t : Fin cfg0.N) (i : S4x64x4096.Idx) :
    i ∈ ((cfg0.win 5).blk t).view.set ↔ ∀ a : Fin 3, win0_5.index t a * S1x64x1024.size a ≤ (i a).val
      ∧ (i a).val < win0_5.index t a * S1x64x1024.size a + S1x64x1024.size a := by
  show i ∈ ((View.whole main_v11_0).slice (win0_5.rect t)).set ↔ _
  rw [View.set_slice_whole, Rect.mem_set_unit]
  exact Iff.rfl

/-- Every entry of the array lies in the block of a point that writes its block back. -/
theorem arrcover0_5 (i : S4x64x4096.Idx) :
    ∃ t : Fin cfg0.N, (cfg0.win 5).flush t = true ∧ i ∈ ((cfg0.win 5).blk t).view.set := by
  have hN : cfg0.N = 16 := N_0
  have h0 : (i 0).val < 4 := (i 0).isLt
  have h1 : (i 1).val < 64 := (i 1).isLt
  have h2 : (i 2).val < 4096 := (i 2).isLt
  obtain ⟨t, ht⟩ : ∃ t : Fin cfg0.N, t.val = 4 * (i 0).val + (i 2).val / 1024 :=
    ⟨⟨4 * (i 0).val + (i 2).val / 1024, by rw [hN]; omega⟩, rfl⟩
  obtain ⟨e0, e1, e2⟩ := idx0_5 t
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 1024 ≤ (i 2).val ∧ (i 2).val < win0_5.index t (2 : Fin 3) * 1024 + 1024; rw [e2]; omega

/-! ### Pipeline 0, window 6: block [1, 64, 1024] of the [4, 64, 1024] array, block index (t.val / 4, 0, 0) -/

theorem idx0_6 : ∀ t : Fin cfg0.N, win0_6.index t (0 : Fin 3) = t.val / 4 ∧ win0_6.index t (1 : Fin 3) = 0
    ∧ win0_6.index t (2 : Fin 3) = 0 :=
  (by decide +kernel : ∀ t : Fin grid0.N, _)

theorem read0_6 (G : S4x64x1024.Idx → Elt F .f32) (t : Fin cfg0.N) (b : Fin 4) (k : Fin 64) (e : Fin 1024)
    (hb : b.val = t.val / 4) :
    ((cfg0.win 6).blk t).view.read (Elt F) G (ix3 0 k e) = G (ix3 b k e) := by
  obtain ⟨e0, e1, e2⟩ := idx0_6 t
  rw [View.read_apply]
  show G _ = G _
  congr 1
  funext a
  apply Fin.ext
  match a with
  | ⟨0, _⟩ => show win0_6.index t (0 : Fin 3) * 1 + 1 * 0 = b.val; rw [e0]; omega
  | ⟨1, _⟩ => show win0_6.index t (1 : Fin 3) * 64 + 1 * k.val = k.val; rw [e1]; omega
  | ⟨2, _⟩ => show win0_6.index t (2 : Fin 3) * 1024 + 1 * e.val = e.val; rw [e2]; omega

theorem iblk0_6_apply (c : Dev nD) (t : Fin cfg0.N) (b : Fin 4) (k : Fin 64) (e : Fin 1024)
    (hb : b.val = t.val / 4) :
    (iblk0 V c 6 t : Vec F S1x64x1024 .f32) (ix3 0 k e) = (V c main_v11_1 : S4x64x1024.Idx → Elt F .f32) (ix3 b k e) :=
  read0_6 (V c main_v11_1) t b k e hb

/-- An entry of the array is in point t's block iff each coordinate is in the block's range on its axis. -/
theorem mem_blk0_6 (t : Fin cfg0.N) (i : S4x64x1024.Idx) :
    i ∈ ((cfg0.win 6).blk t).view.set ↔ ∀ a : Fin 3, win0_6.index t a * S1x64x1024.size a ≤ (i a).val
      ∧ (i a).val < win0_6.index t a * S1x64x1024.size a + S1x64x1024.size a := by
  show i ∈ ((View.whole main_v11_1).slice (win0_6.rect t)).set ↔ _
  rw [View.set_slice_whole, Rect.mem_set_unit]
  exact Iff.rfl

/-- Every entry of the array lies in the block of a point that writes its block back. -/
theorem arrcover0_6 (i : S4x64x1024.Idx) :
    ∃ t : Fin cfg0.N, (cfg0.win 6).flush t = true ∧ i ∈ ((cfg0.win 6).blk t).view.set := by
  have hN : cfg0.N = 16 := N_0
  have h0 : (i 0).val < 4 := (i 0).isLt
  have h1 : (i 1).val < 64 := (i 1).isLt
  have h2 : (i 2).val < 1024 := (i 2).isLt
  obtain ⟨t, ht⟩ : ∃ t : Fin cfg0.N, t.val = 4 * (i 0).val + 3 :=
    ⟨⟨4 * (i 0).val + 3, by rw [hN]; omega⟩, rfl⟩
  obtain ⟨e0, e1, e2⟩ := idx0_6 t
  refine ⟨t, (flush0_6 t).mpr (by omega), ?_⟩
  rw [mem_blk0_6]
  intro a
  match a with
  | ⟨0, _⟩ => show win0_6.index t (0 : Fin 3) * 1 ≤ (i 0).val ∧ (i 0).val < win0_6.index t (0 : Fin 3) * 1 + 1; rw [e0]; omega
  | ⟨1, _⟩ => show win0_6.index t (1 : Fin 3) * 64 ≤ (i 1).val ∧ (i 1).val < win0_6.index t (1 : Fin 3) * 64 + 64; rw [e1]; omega
  | ⟨2, _⟩ => show win0_6.index t (2 : Fin 3) * 1024 ≤ (i 2).val ∧ (i 2).val < win0_6.index t (2 : Fin 3) * 1024 + 1024; rw [e2]; omega

end Cert.KernelIdeal.Hand

end
-- ==== Proof.Value0b.lean ====
/-
  The first kernel region at the extended reals, point by point: each tile's input blocks are rows of the argument arrays
  (through the host operations before the region); so the accumulator after tile n of a batch is the partial sum of the
  splat states over tiles 0..n, the block copied out at the batch's last tile is the splat states of the batch, and the
  transposed-affinity block of every tile is the affinities of the tile's rows.
-/
import proofs.«125242_j49744311222303_2_alg».proof.Proof.IMain
import proofs.«125242_j49744311222303_2_alg».proof.Proof.Value0a
import proofs.«125242_j49744311222303_2_alg».proof.Proof.HostPrefix
import proofs.«125242_j49744311222303_2_alg».proof.Proof.Blocks

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open Cert.Splat (aff val splat tok tile part row scale c2 affRow)

variable (m : (ℓ : Loc nD τ sig) → Buf (Elt Ideal) ℓ) (c : Dev nD)

set_option quotPrecheck false in
local notation "A0" => (m ((c.tc : Thread nD τ).loc main_arg0) : (⟨S4x4096x1024, .f32⟩ : BufTy).Contents (Elt Ideal))
set_option quotPrecheck false in
local notation "A1" => (m ((c.tc : Thread nD τ).loc main_arg1) : (⟨S64x1024, .f32⟩ : BufTy).Contents (Elt Ideal))
set_option quotPrecheck false in
local notation "A2" => (m ((c.tc : Thread nD τ).loc main_arg2) : (⟨S64, .f32⟩ : BufTy).Contents (Elt Ideal))
set_option quotPrecheck false in
local notation "A3" => (m ((c.tc : Thread nD τ).loc main_arg3) : (⟨S1024x1024, .f32⟩ : BufTy).Contents (Elt Ideal))

/-- The batch of grid position n. -/
def bN (n : ℕ) (hn : n < cfg0.N) : Fin 4 := ⟨n / 4, by have h : cfg0.N = 16 := N_0; omega⟩
abbrev bOf (t : Fin cfg0.N) : Fin 4 := bN t.val t.isLt

/-- The input blocks of point t as rows of the arguments. -/
theorem hb0 (t : Fin cfg0.N) (r d : Fin 1024) :
    (iblk0 (Ve0 m) c 0 t : Vec Ideal S1x1024x1024 .f32) (ix3 0 r d) = A0 (ix3 (bOf t) (row (t.val % 4) r) d) := by
  rw [iblk0_0_apply (Ve0 m) c t (bOf t) (row (t.val % 4) r) r d rfl (by rw [Cert.Splat.row_val, Nat.mod_mod])]
  exact congrFun (Pre.arg0_eq m c) _
theorem hb1 (t : Fin cfg0.N) (k : Fin 64) (d : Fin 1024) :
    (iblk0 (Ve0 m) c 1 t : Vec Ideal S64x1024 .bf16) (ix2 k d) = A1 (ix2 k d) := by
  rw [iblk0_1_apply (Ve0 m) c t]; exact Pre.v6_apply m c k d
theorem hb2 (t : Fin cfg0.N) (k : Fin 64) :
    (iblk0 (Ve0 m) c 2 t : Vec Ideal S1x64 .f32) (ix2 0 k) = c2 A1 k := by
  rw [iblk0_2_apply (Ve0 m) c t]; exact Pre.v5_apply m c k
theorem hb3 (t : Fin cfg0.N) (k : Fin 64) :
    (iblk0 (Ve0 m) c 3 t : Vec Ideal S1x64 .f32) (ix2 0 k) = scale A2 k := by
  rw [iblk0_3_apply (Ve0 m) c t]; exact Pre.v2_apply m c k
theorem hb4 (t : Fin cfg0.N) (d e : Fin 1024) :
    (iblk0 (Ve0 m) c 4 t : Vec Ideal S1024x1024 .bf16) (ix2 d e) = A3 (ix2 e d) := by
  rw [iblk0_4_apply (Ve0 m) c t]; exact Pre.v8_apply m c d e

/-- The accumulator after a point: what it found (zero at a batch's first tile) plus the tile's contribution. -/
theorem accTile (t : Fin cfg0.N) (a : Vec Ideal S64x1024 .f32) (k : Fin 64) (e : Fin 1024) :
    accOf (iblk0 (Ve0 m) c 0 t) (iblk0 (Ve0 m) c 1 t) (iblk0 (Ve0 m) c 2 t) (iblk0 (Ve0 m) c 3 t) (iblk0 (Ve0 m) c 4 t) a (ix2 k e)
      = a (ix2 k e) + tile A0 A1 A2 A3 (bOf t) (t.val % 4) k e :=
  acc_apply A0 A1 A2 A3 (bOf t) (t.val % 4) _ _ _ _ _ (hb0 m c t) (hb1 m c t) (hb2 m c t) (hb3 m c t) (hb4 m c t) a k e

theorem acc_first (t : Fin cfg0.N) (h0 : t.val % 4 = 0) (k : Fin 64) (e : Fin 1024) :
    (outsAt0 (Ve0 m) c t.val t.isLt).2.2 (ix2 k e) = part A0 A1 A2 A3 (bOf t) 0 k e := by
  rw [outsAt0_A (Ve0 m) c t h0]
  dsimp only [outA]
  rw [soutA_eq]
  refine (accTile m c t _ k e).trans ?_
  rw [pay4_apply, h0, Cert.Splat.part_zero]

theorem acc_step (n : ℕ) (hn : n + 1 < cfg0.N) (h0 : ¬(n + 1) % 4 = 0) (k : Fin 64) (e : Fin 1024) :
    (outsAt0 (Ve0 m) c (n + 1) hn).2.2 (ix2 k e)
      = (outsAt0 (Ve0 m) c n (Nat.lt_of_succ_lt hn)).2.2 (ix2 k e) + tile A0 A1 A2 A3 (bN (n + 1) hn) ((n + 1) % 4) k e := by
  by_cases h1 : (n + 1) % 4 = 3
  · have h : outsAt0 (Ve0 m) c (n + 1) hn = outC (Ve0 m) c ⟨n + 1, hn⟩ (notc0_of ⟨n + 1, hn⟩ h0) ((hcond0_1 ⟨n + 1, hn⟩).mpr h1)
        (outsAt0 (Ve0 m) c n (Nat.lt_of_succ_lt hn)).2.2 := (dif_neg h0).trans ((dif_pos h1).trans rfl)
    rw [h]
    dsimp only [outC]
    rw [soutC_eq]
    exact accTile m c ⟨n + 1, hn⟩ _ k e
  · have h : outsAt0 (Ve0 m) c (n + 1) hn = outB (Ve0 m) c ⟨n + 1, hn⟩ (notc0_of ⟨n + 1, hn⟩ h0) (notc1_of ⟨n + 1, hn⟩ h1)
        (outsAt0 (Ve0 m) c n (Nat.lt_of_succ_lt hn)).2.2 := (dif_neg h0).trans ((dif_neg h1).trans rfl)
    rw [h]
    dsimp only [outB]
    rw [soutB_eq]
    exact accTile m c ⟨n + 1, hn⟩ _ k e

/-- THE ACCUMULATOR'S INVARIANT: after grid position n it holds the partial sum of its batch over tiles 0..n%4. -/
theorem acc_inv (n : ℕ) : ∀ (hn : n < cfg0.N) (k : Fin 64) (e : Fin 1024),
    (outsAt0 (Ve0 m) c n hn).2.2 (ix2 k e) = part A0 A1 A2 A3 (bN n hn) (n % 4) k e := by
  induction n with
  | zero => intro hn k e; exact acc_first m c ⟨0, hn⟩ (Nat.zero_mod _) k e
  | succ n ih =>
    intro hn k e
    by_cases h0 : (n + 1) % 4 = 0
    · have := acc_first m c ⟨n + 1, hn⟩ h0 k e
      rw [h0]; exact this
    · rw [acc_step m c n hn h0 k e, ih (Nat.lt_of_succ_lt hn) k e]
      have hb : bN (n + 1) hn = bN n (Nat.lt_of_succ_lt hn) := Fin.ext (by show (n + 1) / 4 = n / 4; omega)
      have hm : (n + 1) % 4 = n % 4 + 1 := by omega
      rw [hb, hm, Cert.Splat.part_succ]

/-- The block copied out at a batch's last tile is the batch's splat states. -/
theorem out6_apply (t : Fin cfg0.N) (h1 : t.val % 4 = 3) (k : Fin 64) (e : Fin 1024) :
    (outsAt0 (Ve0 m) c t.val t.isLt).2.1 (ix3 0 k e) = splat A0 A1 A2 A3 (bOf t) k e := by
  have h0 : ¬t.val % 4 = 0 := by omega
  have hacc := acc_inv m c t.val t.isLt k e
  rw [h1, Cert.Splat.part_three] at hacc
  rw [← hacc, outsAt0_C (Ve0 m) c t h0 h1]
  dsimp only [outC]
  rw [out6C_eq, soutC_eq, pay3_apply]

/-- The transposed-affinity block of every tile. -/
theorem out5_apply (t : Fin cfg0.N) (k : Fin 64) (r : Fin 1024) :
    (outsAt0 (Ve0 m) c t.val t.isLt).1 (ix3 0 k r) = aff A0 A1 A2 (bOf t) (row (t.val % 4) r) k := by
  have key : affTOf (iblk0 (Ve0 m) c 0 t) (iblk0 (Ve0 m) c 1 t) (iblk0 (Ve0 m) c 2 t) (iblk0 (Ve0 m) c 3 t) (ix3 0 k r)
      = aff A0 A1 A2 (bOf t) (row (t.val % 4) r) k :=
    affT_apply A0 A1 A2 (bOf t) (t.val % 4) _ _ _ _ (hb0 m c t) (hb1 m c t) (hb2 m c t) (hb3 m c t) k r
  by_cases h0 : t.val % 4 = 0
  · rw [outsAt0_A (Ve0 m) c t h0]; dsimp only [outA]; rw [out5A_eq]; exact key
  · by_cases h1 : t.val % 4 = 3
    · rw [outsAt0_C (Ve0 m) c t h0 h1]; dsimp only [outC]; rw [out5C_eq]; exact key
    · rw [outsAt0_B (Ve0 m) c t h0 h1]; dsimp only [outB]; rw [out5B_eq]; exact key

end Cert.KernelIdeal.Hand

end
-- ==== Proof.Value0c.lean ====
/-
  The first kernel region's two result arrays at the extended reals: every tile writes its transposed-affinity block
  back, and these blocks tile the [4, 64, 4096] array, which so ends holding the affinities transposed; a batch's last
  tile writes the accumulator back, and these four blocks tile the [4, 64, 1024] array, which so ends holding the splat
  states. Then the contents the second region is entered from: those two arrays, and the output projection transposed
  as the host operations left it.
-/
import proofs.«125242_j49744311222303_2_alg».proof.Proof.Value0b

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)
open Cert.Splat (aff val splat tok tile part row scale c2 affRow)

variable (m : (ℓ : Loc nD τ sig) → Buf (Elt Ideal) ℓ) (c : Dev nD)

set_option quotPrecheck false in
local notation "A0" => (m ((c.tc : Thread nD τ).loc main_arg0) : (⟨S4x4096x1024, .f32⟩ : BufTy).Contents (Elt Ideal))
set_option quotPrecheck false in
local notation "A1" => (m ((c.tc : Thread nD τ).loc main_arg1) : (⟨S64x1024, .f32⟩ : BufTy).Contents (Elt Ideal))
set_option quotPrecheck false in
local notation "A2" => (m ((c.tc : Thread nD τ).loc main_arg2) : (⟨S64, .f32⟩ : BufTy).Contents (Elt Ideal))
set_option quotPrecheck false in
local notation "A3" => (m ((c.tc : Thread nD τ).loc main_arg3) : (⟨S1024x1024, .f32⟩ : BufTy).Contents (Elt Ideal))
set_option quotPrecheck false in
local notation "A4" => (m ((c.tc : Thread nD τ).loc main_arg4) : (⟨S1024x1024, .f32⟩ : BufTy).Contents (Elt Ideal))

/-- The affinities, transposed, as one array; the splat states as one array. -/
def AffT : S4x64x4096.Idx → EReal := fun i => aff A0 A1 A2 (i 0) (i 2) (i 1)
def Spl : S4x64x1024.Idx → EReal := fun i => splat A0 A1 A2 A3 (i 0) (i 1) (i 2)

theorem flushed5 (t : Fin cfg0.N) (hf : (cfg0.win 5).flush t = true) :
    (dat0 (Ve0 m) c).flushed 5 t = ((cfg0.win 5).blk t).view.read (Elt Ideal) (AffT m c) := by
  show (cfg0.win 5).cut (grid0.coords t) ((dat0 (Ve0 m) c).after 5 t) = _
  rw [after0_5]
  funext y
  obtain ⟨u, k, r, rfl⟩ : ∃ (u : Fin 1) (k : Fin 64) (r : Fin 1024), y = ix3 u k r := ⟨y 0, y 1, y 2, eq_ix3 y⟩
  obtain rfl : u = 0 := Subsingleton.elim _ _
  refine Eq.trans ?_ (read0_5 (F := Ideal) (AffT m c) t (bOf t) (row (t.val % 4) r) k r rfl (by rw [Cert.Splat.row_val, Nat.mod_mod])).symm
  exact out5_apply m c t k r

theorem final5 : (dat0 (Ve0 m) c).arrAt 5 cfg0.N = AffT m c :=
  (dat0 (Ve0 m) c).arrAt_eq_of_cover 5 (AffT m c) (flushed5 m c) arrcover0_5

theorem flushed6 (t : Fin cfg0.N) (hf : (cfg0.win 6).flush t = true) :
    (dat0 (Ve0 m) c).flushed 6 t = ((cfg0.win 6).blk t).view.read (Elt Ideal) (Spl m c) := by
  have h1 : t.val % 4 = 3 := (flush0_6 t).mp hf
  show (cfg0.win 6).cut (grid0.coords t) ((dat0 (Ve0 m) c).after 6 t) = _
  rw [after0_6]
  funext y
  obtain ⟨u, k, e, rfl⟩ : ∃ (u : Fin 1) (k : Fin 64) (e : Fin 1024), y = ix3 u k e := ⟨y 0, y 1, y 2, eq_ix3 y⟩
  obtain rfl : u = 0 := Subsingleton.elim _ _
  refine Eq.trans ?_ (read0_6 (F := Ideal) (Spl m c) t (bOf t) k e rfl).symm
  exact out6_apply m c t h1 k e

theorem final6 : (dat0 (Ve0 m) c).arrAt 6 cfg0.N = Spl m c :=
  (dat0 (Ve0 m) c).arrAt_eq_of_cover 6 (Spl m c) (flushed6 m c) arrcover0_6

/-- What the second region finds. -/
theorem ve1_affT (b : Fin 4) (k : Fin 64) (s : Fin 4096) :
    (Ve1 m c main_v11_0 : S4x64x4096.Idx → EReal) (ix3 b k s) = aff A0 A1 A2 b s k := by
  have h : Ve1 m c main_v11_0 = AffT m c := (W4_arr m c 5).trans (final5 m c)
  rw [h]; rfl
theorem ve1_spl (b : Fin 4) (k : Fin 64) (e : Fin 1024) :
    (Ve1 m c main_v11_1 : S4x64x1024.Idx → EReal) (ix3 b k e) = splat A0 A1 A2 A3 b k e := by
  have h : Ve1 m c main_v11_1 = Spl m c := (W4_arr m c 6).trans (final6 m c)
  rw [h]; rfl
theorem ve1_wo (e f : Fin 1024) :
    (Ve1 m c main_v10 : S1024x1024.Idx → EReal) (ix2 e f) = A4 (ix2 f e) := by
  have h : Ve1 m c main_v10 = V3 m c main_v10 := W4_of_ne m c main_v10 (by decide)
  rw [h]; exact Pre.v10_apply m c e f

end Cert.KernelIdeal.Hand

end
-- ==== Proof.Value1.lean ====
/-
  The second kernel region's value: the token outputs times the output projection.

  At each grid point (a batch and a tile of 1024 token rows) the body reads the affinities of those rows to the
  64 centres, the batch's 64 splat states and the output weights, and leaves in the output block, row by row,
  the affinity-weighted sum of the splat states applied to the output weights. Read through the blocks'
  positions in their arrays this is the specification's layer output on the block's rows; the sixteen blocks
  tile the output array, so the array ends holding the layer output.
-/
import proofs.«125242_j49744311222303_2_alg».proof.Proof.Spec
import proofs.«125242_j49744311222303_2_alg».proof.Proof.IFrame1
import proofs.«125242_j49744311222303_2_alg».proof.Proof.Payload
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

variable (X : Cert.Splat.SX.Idx → EReal) (C : Cert.Splat.SC.Idx → EReal) (LS : Cert.Splat.SL.Idx → EReal)
  (Wv Wo : Cert.Splat.SW.Idx → EReal)

/-! The auxiliary facts live in a namespace of their own; the region's value, final1, is stated after it. -/
namespace Val1

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store is through the whole output block and its loads are through whole blocks: the output
    block holds the body's arithmetic of the three input blocks. -/
theorem out1_3_eq (y0 : Vec Ideal S1x64x1024 .bf16) (y1 : Vec Ideal S1x64x1024 .f32) (y2 : Vec Ideal S1024x1024 .bf16) :
    out1_3 (F := Ideal) y0 y1 y2 = k1_pay1 y0 y1 y2 := by
  unfold out1_3
  rw [View.canon_unit_zero hz3]
  simp only [View.ld_unit_zero (S := S1x64x1024) hz3, View.ld_unit_zero (S := S1024x1024) hz2]

/-- Where each window's block sits at grid point t: batch t / 4, row tile t % 4. -/
theorem idx_facts1 : ∀ t : Fin cfg1.N,
    win1_0.index t (0 : Fin 3) = t.val / 4 ∧ win1_0.index t (1 : Fin 3) = 0 ∧ win1_0.index t (2 : Fin 3) = t.val % 4
    ∧ win1_1.index t (0 : Fin 3) = t.val / 4 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val / 4 ∧ win1_3.index t (1 : Fin 3) = t.val % 4 ∧ win1_3.index t (2 : Fin 3) = 0 :=
  (by decide +kernel : ∀ t : Fin grid1.N, _)

/-- The affinity block at point t: batch t / 4, all centres, token rows of tile t % 4. -/
theorem iblk1_0_apply (t : Fin cfg1.N) (x : S1x64x1024.Idx) (j : S4x64x4096.Idx)
    (h0 : (j 0).val = t.val / 4) (h1 : (j 1).val = (x 1).val) (h2 : (j 2).val = (t.val % 4) * 1024 + (x 2).val) :
    (iblk1 V c 0 t : Vec Ideal S1x64x1024 .bf16) x = (V c main_v11_0 : S4x64x4096.Idx → EReal) j := by
  obtain ⟨e0, e1, e2, -⟩ := idx_facts1 t
  have hx0 : (x 0).val < 1 := (x 0).isLt
  unfold iblk1
  rw [View.read_apply]
  show V c main_v11_0 _ = V c main_v11_0 _
  congr 1
  funext a
  apply Fin.ext
  match a with
  | ⟨0, _⟩ => show win1_0.index t (0 : Fin 3) * 1 + 1 * (x 0).val = (j 0).val; rw [e0, h0]; omega
  | ⟨1, _⟩ => show win1_0.index t (1 : Fin 3) * 64 + 1 * (x 1).val = (j 1).val; rw [e1, h1]; omega
  | ⟨2, _⟩ => show win1_0.index t (2 : Fin 3) * 1024 + 1 * (x 2).val = (j 2).val; rw [e2, h2]; omega

/-- The splat-state block at point t: batch t / 4, whole. -/
theorem iblk1_1_apply (t : Fin cfg1.N) (x : S1x64x1024.Idx) (j : S4x64x1024.Idx)
    (h0 : (j 0).val = t.val / 4) (h1 : (j 1).val = (x 1).val) (h2 : (j 2).val = (x 2).val) :
    (iblk1 V c 1 t : Vec Ideal S1x64x1024 .f32) x = (V c main_v11_1 : S4x64x1024.Idx → EReal) j := by
  obtain ⟨-, -, -, e0, e1, e2, -⟩ := idx_facts1 t
  have hx0 : (x 0).val < 1 := (x 0).isLt
  unfold iblk1
  rw [View.read_apply]
  show V c main_v11_1 _ = V c main_v11_1 _
  congr 1
  funext a
  apply Fin.ext
  match a with
  | ⟨0, _⟩ => show win1_1.index t (0 : Fin 3) * 1 + 1 * (x 0).val = (j 0).val; rw [e0, h0]; omega
  | ⟨1, _⟩ => show win1_1.index t (1 : Fin 3) * 64 + 1 * (x 1).val = (j 1).val; rw [e1, h1]; omega
  | ⟨2, _⟩ => show win1_1.index t (2 : Fin 3) * 1024 + 1 * (x 2).val = (j 2).val; rw [e2, h2]; omega

/-- The output-weight block at every point: the whole array. -/
theorem iblk1_2_apply (t : Fin cfg1.N) (x : S1024x1024.Idx) :
    (iblk1 V c 2 t : Vec Ideal S1024x1024 .bf16) x = (V c main_v10 : S1024x1024.Idx → EReal) x := by
  obtain ⟨-, -, -, -, -, -, e0, e1, -⟩ := idx_facts1 t
  unfold iblk1
  rw [View.read_apply]
  show V c main_v10 _ = V c main_v10 _
  congr 1
  funext a
  apply Fin.ext
  match a with
  | ⟨0, _⟩ => show win1_2.index t (0 : Fin 2) * 1024 + 1 * (x 0).val = (x 0).val; rw [e0]; omega
  | ⟨1, _⟩ => show win1_2.index t (1 : Fin 2) * 1024 + 1 * (x 1).val = (x 1).val; rw [e1]; omega

/-- An index of the output array is in point t's block iff each coordinate is in the block's range on its axis. -/
theorem mem_blk1 (t : Fin cfg1.N) (i : S4x4096x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v12).slice (win1_3.rect t)).set ↔ _
  rw [View.set_slice_whole, Rect.mem_set_unit]
  exact Iff.rfl

/-- The sixteen output blocks tile the output array: batch p, row q lies in the block of point 4 p + q / 1024. -/
theorem cover1 (i : S4x4096x1024.Idx) :
    ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 1024 := (i 2).isLt
  have hN : cfg1.N = 16 := rfl
  refine ⟨⟨4 * (i 0).val + (i 1).val / 1024, by rw [hN]; omega⟩, flush1_3 _, ?_⟩
  rw [mem_blk1]
  obtain ⟨-, -, -, -, -, -, -, -, e0, e1, e2⟩ := idx_facts1 ⟨4 * (i 0).val + (i 1).val / 1024, by rw [hN]; omega⟩
  intro a
  match a with
  | ⟨0, _⟩ =>
    show win1_3.index _ (0 : Fin 3) * 1 ≤ (i 0).val ∧ (i 0).val < win1_3.index _ (0 : Fin 3) * 1 + 1
    rw [e0]; show (4 * (i 0).val + (i 1).val / 1024) / 4 * 1 ≤ (i 0).val ∧ (i 0).val < (4 * (i 0).val + (i 1).val / 1024) / 4 * 1 + 1; omega
  | ⟨1, _⟩ =>
    show win1_3.index _ (1 : Fin 3) * 1024 ≤ (i 1).val ∧ (i 1).val < win1_3.index _ (1 : Fin 3) * 1024 + 1024
    rw [e1]; show (4 * (i 0).val + (i 1).val / 1024) % 4 * 1024 ≤ (i 1).val ∧ (i 1).val < (4 * (i 0).val + (i 1).val / 1024) % 4 * 1024 + 1024; omega
  | ⟨2, _⟩ =>
    show win1_3.index _ (2 : Fin 3) * 1024 ≤ (i 2).val ∧ (i 2).val < win1_3.index _ (2 : Fin 3) * 1024 + 1024
    rw [e2]; omega

/-- One entry of the output block at point t is the layer output at the entry's place in the array: the
    affinities and splat states read through their blocks are the specification's, and the output weights are
    read transposed. -/
theorem point_eq
    (hA : ∀ (b : Fin 4) (k : Fin 64) (s : Fin 4096),
      (V c main_v11_0 : S4x64x4096.Idx → EReal) (ix3 b k s) = Cert.Splat.aff X C LS b s k)
    (hS : ∀ (b : Fin 4) (k : Fin 64) (e : Fin 1024),
      (V c main_v11_1 : S4x64x1024.Idx → EReal) (ix3 b k e) = Cert.Splat.splat X C LS Wv b k e)
    (hW : ∀ (e f : Fin 1024), (V c main_v10 : S1024x1024.Idx → EReal) (ix2 e f) = Wo (ix2 f e))
    (t : Fin cfg1.N) (z : S1x1024x1024.Idx) (i : S4x4096x1024.Idx)
    (h0 : (i 0).val = t.val / 4) (h1 : (i 1).val = (t.val % 4) * 1024 + (z 1).val) (h2 : (i 2).val = (z 2).val) :
    k1_pay1 (iblk1 V c 0 t) (iblk1 V c 1 t) (iblk1 V c 2 t) z = Cert.Splat.G X C LS Wv Wo i := by
  obtain ⟨b, s, f, rfl⟩ : ∃ (b : Fin 4) (s : Fin 4096) (f : Fin 1024), i = ix3 b s f := ⟨i 0, i 1, i 2, eq_ix3 i⟩
  obtain ⟨u, r, g, rfl⟩ : ∃ (u : Fin 1) (r g : Fin 1024), z = ix3 u r g := ⟨z 0, z 1, z 2, eq_ix3 z⟩
  have h0' : b.val = t.val / 4 := h0
  have h1' : s.val = t.val % 4 * 1024 + r.val := h1
  obtain rfl : g = f := Fin.ext h2.symm
  obtain rfl : u = 0 := Subsingleton.elim _ _
  rw [Cert.KernelIdeal.Pay.k1pay_apply]
  show _ = ∑ e : Fin 1024, (∑ k : Fin 64, Cert.Splat.aff X C LS b s k * Cert.Splat.splat X C LS Wv b k e) * Wo (ix2 g e)
  refine Finset.sum_congr rfl fun e _ => ?_
  rw [iblk1_2_apply V c t, hW]
  congr 1
  refine Finset.sum_congr rfl fun k _ => ?_
  rw [iblk1_0_apply V c t (ix3 0 k r) (ix3 b k s) h0' rfl h1', hA,
    iblk1_1_apply V c t (ix3 0 k e) (ix3 b k e) h0' rfl rfl, hS]

/-- What point t writes back is block t of the layer output. -/
theorem flushed1_eq
    (hA : ∀ (b : Fin 4) (k : Fin 64) (s : Fin 4096),
      (V c main_v11_0 : S4x64x4096.Idx → EReal) (ix3 b k s) = Cert.Splat.aff X C LS b s k)
    (hS : ∀ (b : Fin 4) (k : Fin 64) (e : Fin 1024),
      (V c main_v11_1 : S4x64x1024.Idx → EReal) (ix3 b k e) = Cert.Splat.splat X C LS Wv b k e)
    (hW : ∀ (e f : Fin 1024), (V c main_v10 : S1024x1024.Idx → EReal) (ix2 e f) = Wo (ix2 f e))
    (t : Fin cfg1.N) (hf : (cfg1.win 3).flush t = true) :
    (dat1 V c).flushed 3 t = ((cfg1.win 3).blk t).view.read (Elt Ideal) (Cert.Splat.G X C LS Wv Wo) := by
  show (cfg1.win 3).cut (grid1.coords t) ((dat1 V c).after 3 t) = _
  rw [after1_3, out1_3_eq]
  obtain ⟨-, -, -, -, -, -, -, -, e0, e1, e2⟩ := idx_facts1 t
  funext y
  have hy0 : (y 0).val < 1 := (y 0).isLt
  rw [View.read_apply]
  show k1_pay1 (iblk1 V c 0 t) (iblk1 V c 1 t) (iblk1 V c 2 t) (win1_3.xinj (grid1.coords t) y)
    = Cert.Splat.G X C LS Wv Wo (((cfg1.win 3).blk t).view.emb y)
  refine point_eq V c X C LS Wv Wo hA hS hW t _ _ ?_ ?_ ?_
  · show win1_3.index t (0 : Fin 3) * 1 + 1 * (y 0).val = t.val / 4
    rw [e0]; omega
  · show win1_3.index t (1 : Fin 3) * 1024 + 1 * (y 1).val = t.val % 4 * 1024 + (y 1).val
    rw [e1]; omega
  · show win1_3.index t (2 : Fin 3) * 1024 + 1 * (y 2).val = (y 2).val
    rw [e2]; omega

end Val1
/-- The output array ends holding the layer output. -/
theorem final1
    (hA : ∀ (b : Fin 4) (k : Fin 64) (s : Fin 4096),
      (V c main_v11_0 : S4x64x4096.Idx → EReal) (ix3 b k s) = Cert.Splat.aff X C LS b s k)
    (hS : ∀ (b : Fin 4) (k : Fin 64) (e : Fin 1024),
      (V c main_v11_1 : S4x64x1024.Idx → EReal) (ix3 b k e) = Cert.Splat.splat X C LS Wv b k e)
    (hW : ∀ (e f : Fin 1024), (V c main_v10 : S1024x1024.Idx → EReal) (ix2 e f) = Wo (ix2 f e)) :
    (dat1 V c).arrAt 3 cfg1.N = Cert.Splat.G X C LS Wv Wo :=
  (dat1 V c).arrAt_eq_of_cover 3 (Cert.Splat.G X C LS Wv Wo) (Val1.flushed1_eq V c X C LS Wv Wo hA hS hW) fun i => Val1.cover1 i

end Cert.KernelIdeal.Hand

end
-- ==== Proof.RefIsG.lean ====
/-
  The reference program computes the splat-attention layer G of the specification.

  Each intermediate array of the reference is read at coordinates and identified with the specification's
  quantity of the same name: the clipped scales, the squared centre norms, the unnormalised and the normalised
  affinities, the values, the splat states and the token outputs. Only spelling differs between the two: a power
  with exponent one, sums started from a literal zero, and the host's names for divide, exponential, max and min.
-/
import proofs.«125242_j49744311222303_2_alg».proof.Proof.Spec
import proofs.«125242_j49744311222303_2_alg».proof.Proof.Gen.ReferenceIdeal.Read
import Idealize.ShloMosaic.PureOps.Ideal.Laws
import Idealize.ShloMosaic.PureOps.IdealRules
import Idealize.ShloMosaic.Lib.ValueIdx

noncomputable section

namespace Cert.RefValue

open Idealize.ShloMosaic Idealize.ShloMosaic.ValueIdx Cert.ReferenceIdeal Cert.ReferenceIdeal.Gen Cert.ReferenceIdeal.Read

/-- Raising to the power one changes no extended real. -/
theorem pow_one (x : EReal) : Ideal.pow x 1 = x := by
  induction x using EReal.rec with
  | bot => exact Ideal.pow_bot 1
  | top => rw [Ideal.pow_top, if_pos zero_lt_one]
  | coe r =>
    have h := Ideal.pow_coe_coe (r := r) 1
    rw [EReal.coe_one] at h
    rw [h]
    exact congrArg _ (Real.rpow_one r)

/-- The word 0x3F800000 is the number one. -/
theorem one_lit : Ideal.ofBits .f32 0x3F800000#32 = 1 := IdealRules.sign_bit.ideal_onePat .f32

abbrev X0 := (⟨S4x4096x1024, .f32⟩ : BufTy).Contents (Elt Ideal)
abbrev X1 := (⟨S64x1024, .f32⟩ : BufTy).Contents (Elt Ideal)
abbrev X2 := (⟨S64, .f32⟩ : BufTy).Contents (Elt Ideal)
abbrev X3 := (⟨S1024x1024, .f32⟩ : BufTy).Contents (Elt Ideal)

/-- The clipped scales. -/
theorem scale_eq (x2 : X2) (k : Fin 64) : val_main_v2 (F := Ideal) x2 (ix1 k) = Cert.Splat.scale x2 k := by
  rw [val_main_v2_apply, val_main_call0_v4_apply, val_main_call0_v3_apply, val_main_cst_0_apply,
    val_main_call0_v2_apply, val_main_call0_v1_apply, val_main_call0_v0_apply, val_main_cst_apply, val_main_v1_apply]
  rfl

/-- The squared centre norms. -/
theorem c2_eq (x1 : X1) (k : Fin 64) : val_main_v7 (F := Ideal) x1 (ix1 k) = Cert.Splat.c2 x1 k := by
  have e : ∀ d : Fin 1024, idx_main_v7 (ix1 k) d = ix2 k d := fun d =>
    funext fun a => Fin.ext (by match a with | ⟨0, _⟩ => rfl | ⟨1, _⟩ => rfl)
  rw [val_main_v7_apply, val_main_cst_2_apply]
  simp only [val_main_v6_apply, e]
  rfl

/-- The literal zero the program's sums start from is the number zero. -/
theorem zero_lit : FloatOps.ofBits (F := Ideal) .f32 0x00000000#32 = 0 := Ideal.ofBits_zero_f32

/-- A token row's squared norm, the sum's literal zero removed. -/
theorem rownorm_eq (x0 : X0) (b : Fin 4) (s : Fin 4096) (k : Fin 64) :
    val_main_v11 (F := Ideal) x0 (ix3 b s k) = ∑ d : Fin 1024, x0 (ix3 b s d) * x0 (ix3 b s d) := by
  have e : ∀ d : Fin 1024, idx_main_v4 (idx_main_v5 (idx_main_v11 (ix3 b s k))) d = ix3 b s d := fun d =>
    funext fun a => Fin.ext (by match a with | ⟨0, _⟩ => rfl | ⟨1, _⟩ => rfl | ⟨2, _⟩ => rfl)
  rw [val_main_v11_apply, val_main_v5_apply, val_main_v4_apply, val_main_cst_1_apply, zero_lit, zero_add]
  simp only [val_main_v3_apply, e]
  rfl

/-- A token row against a centre. -/
theorem cross_eq (x0 : X0) (x1 : X1) (b : Fin 4) (s : Fin 4096) (k : Fin 64) :
    val_main_v8 (F := Ideal) x0 x1 (ix3 b s k) = ∑ d : Fin 1024, x0 (ix3 b s d) * x1 (ix2 k d) := by
  have el : ∀ d : Fin 1024, lidx_main_v8 (ix3 b s k) d = ix3 b s d := fun d =>
    funext fun a => Fin.ext (by match a with | ⟨0, _⟩ => rfl | ⟨1, _⟩ => rfl | ⟨2, _⟩ => rfl)
  have er : ∀ d : Fin 1024, ridx_main_v8 (ix3 b s k) d = ix2 k d := fun d =>
    funext fun a => Fin.ext (by match a with | ⟨0, _⟩ => rfl | ⟨1, _⟩ => rfl)
  rw [val_main_v8_apply]
  simp only [el, er]

/-- The unnormalised affinities: the power with exponent one is the identity. -/
theorem erow_eq (x0 : X0) (x1 : X1) (x2 : X2) (b : Fin 4) (s : Fin 4096) (k : Fin 64) :
    val_main_v26 (F := Ideal) x0 x1 x2 (ix3 b s k)
      = Cert.Splat.erow (fun d => x0 (ix3 b s d)) x1 (Cert.Splat.c2 x1) (Cert.Splat.scale x2) k := by
  have e14 : idx_main_v13 (idx_main_v14 (ix3 b s k)) = ix1 k :=
    funext fun a => Fin.ext (by match a with | ⟨0, _⟩ => rfl)
  have e22 : idx_main_v21 (idx_main_v22 (ix3 b s k)) = ix1 k :=
    funext fun a => Fin.ext (by match a with | ⟨0, _⟩ => rfl)
  have h1 : FloatOps.ofBits (F := Ideal) .f32 0x3F800000#32 = 1 := one_lit
  rw [val_main_v26_apply, val_main_v25_apply, val_main_cst_6_apply, h1, Ideal.hostPowf_def, pow_one,
    val_main_v24_apply, val_main_v23_apply,
    val_main_v19_apply, val_main_v18_apply, val_main_cst_5_apply,
    val_main_v17_apply, val_main_v16_apply, val_main_cst_4_apply,
    val_main_v15_apply, val_main_v12_apply, rownorm_eq,
    val_main_v10_apply, val_main_v9_apply, val_main_cst_3_apply, cross_eq,
    val_main_v14_apply, val_main_v13_apply, e14, c2_eq,
    val_main_v22_apply, val_main_v21_apply, e22, val_main_v20_apply, scale_eq]
  rfl

/-- The normalised affinities, the sum's literal zero removed. -/
theorem aff_eq (x0 : X0) (x1 : X1) (x2 : X2) (b : Fin 4) (s : Fin 4096) (k : Fin 64) :
    val_main_v32 (F := Ideal) x0 x1 x2 (ix3 b s k) = Cert.Splat.aff x0 x1 x2 b s k := by
  have e : ∀ k' : Fin 64, idx_main_v27 (idx_main_v28 (idx_main_v31 (ix3 b s k))) k' = ix3 b s k' := fun k' =>
    funext fun a => Fin.ext (by match a with | ⟨0, _⟩ => rfl | ⟨1, _⟩ => rfl | ⟨2, _⟩ => rfl)
  rw [val_main_v32_apply, erow_eq, val_main_v31_apply, val_main_v30_apply, val_main_v28_apply, val_main_v27_apply,
    val_main_cst_7_apply, zero_lit, zero_add, val_main_v29_apply, val_main_cst_8_apply]
  simp only [e, erow_eq]
  rfl

/-- The values. -/
theorem val_eq (x0 : X0) (x3 : X3) (b : Fin 4) (s : Fin 4096) (e : Fin 1024) :
    val_main_v0 (F := Ideal) x0 x3 (ix3 b s e) = Cert.Splat.val x0 x3 b s e := by
  have el : ∀ d : Fin 1024, lidx_main_v0 (ix3 b s e) d = ix3 b s d := fun d =>
    funext fun a => Fin.ext (by match a with | ⟨0, _⟩ => rfl | ⟨1, _⟩ => rfl | ⟨2, _⟩ => rfl)
  have er : ∀ d : Fin 1024, ridx_main_v0 (ix3 b s e) d = ix2 e d := fun d =>
    funext fun a => Fin.ext (by match a with | ⟨0, _⟩ => rfl | ⟨1, _⟩ => rfl)
  rw [val_main_v0_apply]
  simp only [el, er]
  rfl

/-- The splat states. -/
theorem splat_eq (x0 : X0) (x1 : X1) (x2 : X2) (x3 : X3) (b : Fin 4) (k : Fin 64) (e : Fin 1024) :
    val_main_v33 (F := Ideal) x0 x1 x2 x3 (ix3 b k e) = Cert.Splat.splat x0 x1 x2 x3 b k e := by
  have el : ∀ s : Fin 4096, lidx_main_v33 (ix3 b k e) s = ix3 b s k := fun s =>
    funext fun a => Fin.ext (by match a with | ⟨0, _⟩ => rfl | ⟨1, _⟩ => rfl | ⟨2, _⟩ => rfl)
  have er : ∀ s : Fin 4096, ridx_main_v33 (ix3 b k e) s = ix3 b s e := fun s =>
    funext fun a => Fin.ext (by match a with | ⟨0, _⟩ => rfl | ⟨1, _⟩ => rfl | ⟨2, _⟩ => rfl)
  rw [val_main_v33_apply]
  simp only [el, er, aff_eq, val_eq]
  rfl

/-- The token outputs. -/
theorem tok_eq (x0 : X0) (x1 : X1) (x2 : X2) (x3 : X3) (b : Fin 4) (s : Fin 4096) (e : Fin 1024) :
    val_main_v34 (F := Ideal) x0 x1 x2 x3 (ix3 b s e) = Cert.Splat.tok x0 x1 x2 x3 b s e := by
  have el : ∀ k : Fin 64, lidx_main_v34 (ix3 b s e) k = ix3 b s k := fun k =>
    funext fun a => Fin.ext (by match a with | ⟨0, _⟩ => rfl | ⟨1, _⟩ => rfl | ⟨2, _⟩ => rfl)
  have er : ∀ k : Fin 64, ridx_main_v34 (ix3 b s e) k = ix3 b k e := fun k =>
    funext fun a => Fin.ext (by match a with | ⟨0, _⟩ => rfl | ⟨1, _⟩ => rfl | ⟨2, _⟩ => rfl)
  rw [val_main_v34_apply]
  simp only [el, er, aff_eq, splat_eq]
  rfl

/-- The reference's result is the layer's output. -/
theorem ref_eq (x0 : (⟨Cert.ReferenceIdeal.S4x4096x1024, .f32⟩ : BufTy).Contents (Elt Ideal))
    (x1 : (⟨Cert.ReferenceIdeal.S64x1024, .f32⟩ : BufTy).Contents (Elt Ideal))
    (x2 : (⟨Cert.ReferenceIdeal.S64, .f32⟩ : BufTy).Contents (Elt Ideal))
    (x3 x4 : (⟨Cert.ReferenceIdeal.S1024x1024, .f32⟩ : BufTy).Contents (Elt Ideal)) :
    val_main_v35 (F := Ideal) x0 x1 x2 x3 x4 = Cert.Splat.G x0 x1 x2 x3 x4 := by
  funext i
  obtain ⟨b, s, f, rfl⟩ : ∃ (b : Fin 4) (s : Fin 4096) (f : Fin 1024), i = ix3 b s f := ⟨i 0, i 1, i 2, eq_ix3 i⟩
  have el : ∀ e : Fin 1024, lidx_main_v35 (ix3 b s f) e = ix3 b s e := fun e =>
    funext fun a => Fin.ext (by match a with | ⟨0, _⟩ => rfl | ⟨1, _⟩ => rfl | ⟨2, _⟩ => rfl)
  have er : ∀ e : Fin 1024, ridx_main_v35 (ix3 b s f) e = ix2 f e := fun e =>
    funext fun a => Fin.ext (by match a with | ⟨0, _⟩ => rfl | ⟨1, _⟩ => rfl)
  rw [val_main_v35_apply]
  simp only [el, er, tok_eq]
  rfl

end Cert.RefValue

end
-- ==== Proof.lean ====
/-
  Splat attention: a Pallas kernel pair against its jnp reference, equal on the extended reals.

  Both programs compute, for token rows x, 64 centres with clipped scales s and squared norms c2,
    aff = e / (Σ e + ε),  e = exp (−½ · max (|x|² − 2⟨x, c⟩ + c2) 0 / s²),
  then the splat states Σ_s aff · (X·Wvᵀ) per batch, the token outputs aff · splat, and the output projection.
  The kernel side tiles a batch's 4096 rows into four tiles of 1024: its first kernel writes each tile's affinities
  (transposed) and accumulates the tile's contribution to the splat states in a scratch buffer carried across the four
  tiles (zeroed at the first, copied out at the last); its second kernel multiplies the affinities back onto the splat
  states and projects. The reference sums over the 4096 rows at once and raises e to the power 1. On the extended reals
  x ^ 1 = x for every x, and the tile-by-tile sum is the whole sum by commutativity and associativity of + alone, so no
  finiteness of the inputs is used: the two results are the one function Cert.Splat.G of the five argument arrays.
  The frames of the two kernel programs are their runs through the two kernel regions (the first with the accumulator
  carried by the region invariant), the reference's frame is its run with the result dropped; the idealization rewrote
  nothing, so there is nothing to preserve.
-/
import proofs.«125242_j49744311222303_2_alg».proof.Defs
import proofs.«125242_j49744311222303_2_alg».proof.Proof.Gen.Kernel
import proofs.«125242_j49744311222303_2_alg».proof.Proof.Gen.KernelIdeal
import proofs.«125242_j49744311222303_2_alg».proof.Proof.Gen.ReferenceIdeal
import proofs.«125242_j49744311222303_2_alg».proof.Proof.Gen.ReferenceIdeal.Run
import proofs.«125242_j49744311222303_2_alg».proof.Proof.Gen.ReferenceIdeal.Read
import proofs.«125242_j49744311222303_2_alg».proof.Proof.Gen.Pre_finite_inputs
import proofs.«125242_j49744311222303_2_alg».proof.Proof.BMain
import proofs.«125242_j49744311222303_2_alg».proof.Proof.Value0c
import proofs.«125242_j49744311222303_2_alg».proof.Proof.Value1
import proofs.«125242_j49744311222303_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array: what the second region's write-backs leave is the layer's output. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.dat1 (Cert.KernelIdeal.Hand.Ve1 m) c).arrAt 3 Cert.KernelIdeal.cfg1.N
      = Cert.Splat.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
  Cert.KernelIdeal.Hand.final1 (Cert.KernelIdeal.Hand.Ve1 m) c _ _ _ _ _
    (Cert.KernelIdeal.Hand.ve1_affT m c) (Cert.KernelIdeal.Hand.ve1_spl m c) (Cert.KernelIdeal.Hand.ve1_wo m c)

/-- Both idealized programs end with the layer's output of their (agreeing) arguments. -/
theorem algebraic : Cert.algebraic_KernelIdeal_ReferenceIdeal := by
  intro m ρ m' ρ' _ hagree
  refine ⟨fun c => Cert.Splat.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_value m c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.RefValue.ref_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
